-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S256x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S20000x128 .f32) (main_arg2 : IVec S640000 32) (main_arg3 : IVec S640000 32) (main_arg4 : FVec F S128x128 .f32) (main_arg5 : FVec F S128 .f32) (main_arg6 : FVec F S256x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S20000x128 : Shape := ⟨2, ![20000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S10000x128 : Shape := ⟨2, ![10000, 128]⟩
abbrev S_ : Shape := ⟨0, ![]⟩
abbrev S640000x1 : Shape := ⟨2, ![640000, 1]⟩
abbrev S640000x128 : Shape := ⟨2, ![640000, 128]⟩
abbrev S4000x128 : Shape := ⟨2, ![4000, 128]⟩
abbrev S5000x128 : Shape := ⟨2, ![5000, 128]⟩

abbrev nBuf : Space → Nat
  | .hbm => 58
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S100000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S20000x128, .f32⟩
  | .hbm, ⟨29, _⟩ => ⟨S640000x1, .i32⟩
  | .hbm, ⟨30, _⟩ => ⟨S20000x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S20000x128, .f32⟩
  | .hbm, ⟨39, _⟩ => ⟨S20000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S100000x128, .f32⟩
  | .hbm, ⟨51, _⟩ => ⟨S640000x1, .i32⟩
  | .hbm, ⟨52, _⟩ => ⟨S100000x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  broadcasts_S1x128_S4000x128 : S1x128.Broadcasts S4000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  dot_S10000x128_S128x128_S10000x128_1_0_0_1_n_n_wf : DotDims.WF S10000x128 S128x128 S10000x128 [1] [0] [0] [1] [] []
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  dot_S4000x128_S128x128_S4000x128_1_0_0_1_n_n_wf : DotDims.WF S4000x128 S128x128 S4000x128 [1] [0] [0] [1] [] []
  gather_S20000x128_S640000x1_S640000x128_1_0_n_n_0_1_1128_wf : GatherDims.WF S20000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S20000x128.size a
  hwx1_9 : ∀ i : grid1.Coords, EltTy.bits .f32 = 32 ∨ (Rect.block (s := S20000x128) S4000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S20000x128.size a
  hwx1_10 : ∀ i : grid1.Coords, EltTy.bits .f32 = 32 ∨ (Rect.block (s := S20000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19_0) S4000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v19_1) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v34) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S20000x256 : Shape := ⟨2, ![20000, 256]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S_, .f32⟩
  | .hbm, ⟨38, _⟩ => ⟨S20000x128, .f32⟩
  | .hbm, ⟨39, _⟩ => ⟨S640000x1, .i32⟩
  | .hbm, ⟨40, _⟩ => ⟨S20000x128, .f32⟩
  | .hbm, ⟨41, _⟩ => ⟨S20000x256, .f32⟩
  | .hbm, ⟨42, _⟩ => ⟨S20000x128, .f32⟩
  | .hbm, ⟨43, _⟩ => ⟨S1x128, .f32⟩
  | .hbm, ⟨44, _⟩ => ⟨S20000x128, .f32⟩
  | .hbm, ⟨45, _⟩ => ⟨S20000x128, .f32⟩
  | .hbm, ⟨46, _⟩ => ⟨S20000x128, .f32⟩
  | .hbm, ⟨47, _⟩ => ⟨S20000x128, .f32⟩
  | .hbm, ⟨48, _⟩ => ⟨S_, .f32⟩
  | .hbm, ⟨49, _⟩ => ⟨S20000x128, .f32⟩
  | .hbm, ⟨50, _⟩ => ⟨S20000x128, .f32⟩
  | .hbm, ⟨51, _⟩ => ⟨S_, .f32⟩
  | .hbm, ⟨52, _⟩ => ⟨S20000x128, .f32⟩
  | .hbm, ⟨53, _⟩ => ⟨S20000x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .f32⟩
  | .hbm, ⟨63, _⟩ => ⟨S_, .f32⟩
  | .hbm, ⟨64, _⟩ => ⟨S100000x128, .f32⟩
  | .hbm, ⟨65, _⟩ => ⟨S640000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S20000x128, .f32⟩
  | .hbm, ⟨94, _⟩ => ⟨S20000x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S20000x128, .f32⟩
  | .hbm, ⟨101, _⟩ => ⟨S20000x128, .f32⟩
  | .hbm, ⟨102, _⟩ => ⟨S1x128, .f32⟩
  | .hbm, ⟨103, _⟩ => ⟨S20000x128, .f32⟩
  | .hbm, ⟨104, _⟩ => ⟨S20000x128, .f32⟩
  | .hbm, ⟨105, _⟩ => ⟨S1x128, .f32⟩
  | .hbm, ⟨106, _⟩ => ⟨S20000x128, .f32⟩
  | .hbm, ⟨107, _⟩ => ⟨S20000x128, .f32⟩
  | .hbm, ⟨108, _⟩ => ⟨S20000x128, .f32⟩
  | .hbm, ⟨109, _⟩ => ⟨S20000x128, .f32⟩
  | .hbm, ⟨110, _⟩ => ⟨S20000x128, .f32⟩
  | .hbm, ⟨111, _⟩ => ⟨S_, .f32⟩
  | .hbm, ⟨112, _⟩ => ⟨S20000x128, .f32⟩
  | .hbm, ⟨113, _⟩ => ⟨S20000x128, .f32⟩
  | .hbm, ⟨114, _⟩ => ⟨S_, .f32⟩
  | .hbm, ⟨115, _⟩ => ⟨S20000x128, .f32⟩
  | .hbm, ⟨116, _⟩ => ⟨S20000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []
  gather_S20000x128_S640000x1_S640000x128_1_0_n_n_0_1_1128_wf : GatherDims.WF S20000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.EndState.lean ====
/-
  Where every buffer of the message-passing program ends.

  The program is three row-tiled kernels with stretches of plain array operations between them.  Its run is a walk
  through seven boundaries: the launch memory, then alternately the memory after a stretch of array operations and
  the memory after a kernel has written its output arrays back.  The last boundary is the memory after the third
  kernel.  This file states the one fact the value proof needs about the run as a whole: every weakly fair
  execution terminates without a fault, and each buffer that is not scoped to a kernel holds, at the end, exactly
  what the last boundary of that walk says.  The two results and the sixteen arguments are such buffers, so what
  they hold at the end is read off the walk and nothing else.
-/
import proofs.«111269_j15118284882724_2_alg».proof.Proof.Gen.KernelIdeal.Frame

set_option maxRecDepth 16384

noncomputable section

namespace Cert.KernelIdeal.EndState

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, and at the end every buffer
    that no kernel scopes holds the contents of the last boundary of the walk (`Gen.W6`): the memory after the
    third kernel's write-backs, itself built from the memory after the second, and so on back to the launch. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.EndState

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.Spec.lean ====
/-
  One layer of hypergraph message passing, written as functions of array entries on the extended reals.

  Three maps make up the layer, each read at a row `p` and a feature column `c` (there are 128 features):

  * `linSigAt`: a row of `x` against column `c` of a weight matrix, a bias added, through the logistic function —
    the message a node sends.
  * `linSig2At`: the same with TWO rows side by side, `x`'s against the upper 128 rows of a 256-row weight matrix
    and `a`'s against its lower 128 rows — the message a hyperedge sends from its own features and what its nodes
    sent it.  The two partial sums are added; no 256-wide row is ever formed.
  * `bnSigAt`: the entry normalised with fixed statistics (subtract a mean, multiply by the reciprocal square root of
    a variance plus a small constant, scale, shift), the received sum added, through the logistic function — the
    update of a node's or a hyperedge's own features.

  One law joins the two ways of forming a hyperedge's message: a sum over 256 terms is the sum of its first 128 and
  its last 128 terms.  It is associativity and commutativity of addition only, so it holds on all of the extended
  reals, infinities included, and no entry has to be finite for it.
-/
import Idealize.ShloMosaic.Lib.ValueIdx
import Idealize.ShloMosaic.PureOps.Ideal

noncomputable section

open scoped BigOperators

namespace Cert.HyperMsg

open Idealize.ShloMosaic Idealize.ShloMosaic.ValueIdx

/-- An `[a, b]` array of extended reals. -/
abbrev Mat (a b : ℕ) : Type := FVec Ideal ⟨2, ![a, b]⟩ .f32
/-- A vector of `b` extended reals. -/
abbrev Row (b : ℕ) : Type := FVec Ideal ⟨1, ![b]⟩ .f32

/-- The small constant added to a variance before its reciprocal square root: the binary32 number nearest
    `1e-5`, kept as its word. Both programs carry this same word, so it is never evaluated. -/
abbrev varEps : EReal := Ideal.ofBits .f32 0x3727C5AC#32

/-- Row `p` of `x` against column `c` of `W`, plus `b c`, through the logistic function. -/
def linSigAt {n : ℕ} (x : Mat n 128) (W : Mat 128 128) (b : Row 128) (p : Fin n) (c : Fin 128) : EReal :=
  Ideal.logistic ((∑ k : Fin 128, x (ix2 p k) * W (ix2 k c)) + b (ix1 c))

/-- Row `p` of `x` against rows `0 … 127` of `W` and row `p` of `a` against rows `128 … 255` of `W`, both at column
    `c`, added, plus `b c`, through the logistic function. -/
def linSig2At {n : ℕ} (x a : Mat n 128) (W : Mat 256 128) (b : Row 128) (p : Fin n) (c : Fin 128) : EReal :=
  Ideal.logistic (((∑ k : Fin 128, x (ix2 p k) * W (ix2 (⟨k.val, by omega⟩ : Fin 256) c))
      + ∑ k : Fin 128, a (ix2 p k) * W (ix2 (⟨128 + k.val, by omega⟩ : Fin 256) c)) + b (ix1 c))

/-- The entry `(p, c)` of `x` normalised by the fixed statistics of column `c`, scaled by `g c`, shifted by `be c`,
    the received sum `agg (p, c)` added, through the logistic function. -/
def bnSigAt {n : ℕ} (x : Mat n 128) (g be mu var : Row 128) (agg : Mat n 128) (p : Fin n) (c : Fin 128) : EReal :=
  Ideal.logistic ((((x (ix2 p c) - mu (ix1 c)) * Ideal.rsqrt (var (ix1 c) + varEps)) * g (ix1 c) + be (ix1 c))
    + agg (ix2 p c))

/-- The three maps as whole arrays. -/
def linSig {n : ℕ} (x : Mat n 128) (W : Mat 128 128) (b : Row 128) : Mat n 128 :=
  fun i => linSigAt x W b (i 0) (i 1)
def linSig2 {n : ℕ} (x a : Mat n 128) (W : Mat 256 128) (b : Row 128) : Mat n 128 :=
  fun i => linSig2At x a W b (i 0) (i 1)
def bnSig {n : ℕ} (x : Mat n 128) (g be mu var : Row 128) (agg : Mat n 128) : Mat n 128 :=
  fun i => bnSigAt x g be mu var agg (i 0) (i 1)

theorem linSig_ix2 {n : ℕ} (x : Mat n 128) (W : Mat 128 128) (b : Row 128) (p : Fin n) (c : Fin 128) :
    linSig x W b (ix2 p c) = linSigAt x W b p c := rfl
theorem linSig2_ix2 {n : ℕ} (x a : Mat n 128) (W : Mat 256 128) (b : Row 128) (p : Fin n) (c : Fin 128) :
    linSig2 x a W b (ix2 p c) = linSig2At x a W b p c := rfl
theorem bnSig_ix2 {n : ℕ} (x : Mat n 128) (g be mu var : Row 128) (agg : Mat n 128) (p : Fin n) (c : Fin 128) :
    bnSig x g be mu var agg (ix2 p c) = bnSigAt x g be mu var agg p c := rfl

/-- A sum of 256 terms is the sum of its first 128 terms plus the sum of its last 128 terms. -/
theorem sum_256_split {M : Type*} [AddCommMonoid M] (f : Fin 256 → M) :
    ∑ k : Fin 256, f k
      = (∑ k : Fin 128, f ⟨k.val, by omega⟩) + ∑ k : Fin 128, f ⟨128 + k.val, by omega⟩ :=
  Fin.sum_univ_add (a := 128) (b := 128) f

end Cert.HyperMsg

end
-- ==== Proof.Bodies.lean ====
/-
  What each of the three kernels stores, read at one entry of the stored tile.

  Every kernel works on a tile of whole rows (all 128 feature columns) and on small operands it keeps whole: one or
  two 128 × 128 weight blocks and one-row tables of 128 numbers.  At a row `p` of the tile and a column `q`:

  * the first kernel stores the logistic function of row `p` of the tile against column `q` of the weights, plus the
    bias's entry `q`;
  * the second kernel stores two things: the logistic function of row `p` of the edge tile against column `q` of the
    upper weights PLUS row `p` of the received sums against column `q` of the lower weights, plus the bias; and the
    logistic function of the tile's entry normalised by column `q`'s statistics plus the received sum's entry;
  * the third kernel stores that same normalised update for a tile of node rows.

  Rounding an operand to a shorter format on the way into a product is the identity on the extended reals, a matrix
  product into a zero accumulator is the plain sum of products, and a one-row table spread over the rows of a tile
  reads, at `(p, q)`, its entry `q`.
-/
import proofs.«111269_j15118284882724_2_alg».proof.Proof.Gen.KernelIdeal.Skeleton
import proofs.«111269_j15118284882724_2_alg».proof.Proof.LibRowOps
import proofs.«111269_j15118284882724_2_alg».proof.Proof.Spec
import Idealize.ShloMosaic.Lib.ValueLayout
import Idealize.ShloMosaic.Lib.Pipeline.Value

noncomputable section

open scoped BigOperators

namespace Cert.KernelIdeal.Bodies

open Idealize.ShloMosaic Idealize.ShloMosaic.ValueIdx Cert.KernelIdeal Cert.KernelIdeal.Gen Cert.HyperMsg

/-! ## The two matrix products' coordinates: which operand coordinate is the row, the column, the summed one -/

abbrev D0 := dot_S10000x128_S128x128_S10000x128_1_0_0_1_n_n
abbrev D1 := dot_S4000x128_S128x128_S4000x128_1_0_0_1_n_n

theorem d0_l0 (i : S10000x128.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem d0_l1 (i : S10000x128.Idx) (q : D0.contr.Idx) : (D0.lhsIdx i q 1).val = (q ⟨0, by decide⟩).val :=
  D0.lhsIdx_val_of_single rfl i q
theorem d0_r0 (i : S10000x128.Idx) (q : D0.contr.Idx) : (D0.rhsIdx i q 0).val = (q ⟨0, by decide⟩).val :=
  D0.rhsIdx_val_of_single rfl i q
theorem d0_r1 (i : S10000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

theorem d1_l0 (i : S4000x128.Idx) (q : D1.contr.Idx) : (D1.lhsIdx i q 0).val = (i 0).val := by
  unfold DotDims.lhsIdx
  rw [dif_neg (show ¬(0 : Fin S4000x128.rank) ∈ D1.lhsBatch by decide), dif_pos (show (0 : Fin S4000x128.rank) ∈ D1.lhsNonContracting by decide)]
  rfl
theorem d1_l1 (i : S4000x128.Idx) (q : D1.contr.Idx) : (D1.lhsIdx i q 1).val = (q ⟨0, by decide⟩).val :=
  D1.lhsIdx_val_of_single rfl i q
theorem d1_r0 (i : S4000x128.Idx) (q : D1.contr.Idx) : (D1.rhsIdx i q 0).val = (q ⟨0, by decide⟩).val :=
  D1.rhsIdx_val_of_single rfl i q
theorem d1_r1 (i : S4000x128.Idx) (q : D1.contr.Idx) : (D1.rhsIdx i q 1).val = (i 1).val := by
  unfold DotDims.rhsIdx
  rw [dif_neg (show ¬(1 : Fin S128x128.rank) ∈ D1.rhsBatch by decide), dif_pos (show (1 : Fin S128x128.rank) ∈ D1.rhsNonContracting by decide)]
  rfl

/-! ## The first kernel: a node's message -/

/-- Row `p` of the tile against column `q` of the weights, plus the bias's entry `q`, through the logistic function. -/
theorem nodeMsg_at (X : Vec Ideal S10000x128 .f32) (Wb : Vec Ideal S128x128 .f32) (B : Vec Ideal S1x128 .f32)
    (p : Fin 10000) (q : Fin 128) :
    k0_pay1 (F := Ideal) X Wb B (ix2 p q)
      = Ideal.logistic ((∑ k : Fin 128, X (ix2 p k) * Wb (ix2 k q)) + B (ix2 (0 : Fin 1) q)) := by
  unfold k0_pay1
  simp only [shapeCast_self]
  refine congrArg Ideal.logistic (congrArg₂ (· + ·) ?_ ?_)
  · exact Cert.LibRowOps.matmul_zero_apply D0 none _ _ rfl rfl d0_l0 d0_l1 d0_r0 d0_r1 p q
  · exact broadcastTo_1b_ab_apply B _ p q

/-! ## The second kernel: a hyperedge's message and its own update -/

/-- Row `p` of the edge tile against column `q` of the upper weights plus row `p` of the received sums against column
    `q` of the lower weights, plus the bias's entry `q`, through the logistic function. -/
theorem edgeMsg_at (X A : Vec Ideal S4000x128 .f32) (Wt Wb : Vec Ideal S128x128 .f32) (B : Vec Ideal S1x128 .f32)
    (p : Fin 4000) (q : Fin 128) :
    k1_pay3 (F := Ideal) X A Wt Wb B (ix2 p q)
      = Ideal.logistic (((∑ k : Fin 128, X (ix2 p k) * Wt (ix2 k q)) + ∑ k : Fin 128, A (ix2 p k) * Wb (ix2 k q))
          + B (ix2 (0 : Fin 1) q)) := by
  unfold k1_pay3 k1_pay2
  simp only [shapeCast_self]
  refine congrArg Ideal.logistic (congrArg₂ (· + ·) (congrArg₂ (· + ·) ?_ ?_) ?_)
  · exact Cert.LibRowOps.matmul_zero_apply D1 none _ _ rfl rfl d1_l0 d1_l1 d1_r0 d1_r1 p q
  · exact Cert.LibRowOps.matmul_zero_apply D1 none _ _ rfl rfl d1_l0 d1_l1 d1_r0 d1_r1 p q
  · exact broadcastTo_1b_ab_apply B _ p q

/-- The edge tile's entry less the mean, times the reciprocal square root of the variance plus the small constant,
    times the scale, plus the shift, plus the received sum's entry, through the logistic function. -/
theorem edgeUpd_at (X A : Vec Ideal S4000x128 .f32) (G Be Mu Var : Vec Ideal S1x128 .f32) (p : Fin 4000) (q : Fin 128) :
    k1_pay1 (F := Ideal) (k1_pay2 A) (k1_pay4 X Var Mu G) Be (ix2 p q)
      = Ideal.logistic ((((X (ix2 p q) - Mu (ix2 (0 : Fin 1) q)) * Ideal.rsqrt (Var (ix2 (0 : Fin 1) q) + varEps))
          * G (ix2 (0 : Fin 1) q) + Be (ix2 (0 : Fin 1) q)) + A (ix2 p q)) := by
  unfold k1_pay1 k1_pay2 k1_pay4
  simp only [shapeCast_self]
  refine congrArg Ideal.logistic (congrArg₂ (· + ·) (congrArg₂ (· + ·) (congrArg₂ (· * ·) (congrArg₂ (· * ·) (congrArg₂ (· - ·) rfl ?_) ?_) ?_) ?_) rfl)
  · exact broadcastTo_1b_ab_apply Mu _ p q
  · exact broadcastTo_1b_ab_apply _ _ p q
  · exact broadcastTo_1b_ab_apply G _ p q
  · exact broadcastTo_1b_ab_apply Be _ p q

/-! ## The third kernel: a node's own update -/

/-- The node tile's entry normalised by column `q`'s statistics, scaled and shifted, plus the received sum's entry,
    through the logistic function. -/
theorem nodeUpd_at (X A : Vec Ideal S5000x128 .f32) (G Be Mu Var : Vec Ideal S1x128 .f32) (p : Fin 5000) (q : Fin 128) :
    k2_pay1 (F := Ideal) X Var Mu G Be A (ix2 p q)
      = Ideal.logistic ((((X (ix2 p q) - Mu (ix2 (0 : Fin 1) q)) * Ideal.rsqrt (Var (ix2 (0 : Fin 1) q) + varEps))
          * G (ix2 (0 : Fin 1) q) + Be (ix2 (0 : Fin 1) q)) + A (ix2 p q)) := by
  unfold k2_pay1
  simp only [shapeCast_self]
  refine congrArg Ideal.logistic (congrArg₂ (· + ·) (congrArg₂ (· + ·) (congrArg₂ (· * ·) (congrArg₂ (· * ·) (congrArg₂ (· - ·) rfl ?_) ?_) ?_) ?_) rfl)
  · exact broadcastTo_1b_ab_apply Mu _ p q
  · exact broadcastTo_1b_ab_apply _ _ p q
  · exact broadcastTo_1b_ab_apply G _ p q
  · exact broadcastTo_1b_ab_apply Be _ p q

end Cert.KernelIdeal.Bodies

end
-- ==== Proof.NodeMsgArray.lean ====
/-
  The array the first kernel leaves: every node's message.

  The 100000 node rows are cut into ten tiles of 10000 rows; point `t` of the grid reads tile `t` of the node
  features, the whole weight block and the whole one-row bias, and writes tile `t` of the result.  Row `p` of tile `t`
  is row `t · 10000 + p` of the array, so what point `t` writes back is tile `t` of ONE function of the arrays as
  the kernel finds them: at `(r, q)`, row `r` of the features against column `q` of the weights, plus the bias's entry
  `q`, through the logistic function.  Row `r` lies in tile `r / 10000`, so the ten tiles cover the array and the
  array ends holding that function everywhere.
-/
import proofs.«111269_j15118284882724_2_alg».proof.Proof.Gen.KernelIdeal.Frame
import proofs.«111269_j15118284882724_2_alg».proof.Proof.Bodies

set_option maxRecDepth 16384

noncomputable section

open scoped BigOperators

namespace Cert.KernelIdeal.NodeMsgArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.HyperMsg

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature tile and the result tile move down one tile per point, the
    weights and the bias stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature tile at point `t` is row `t · 10000 + p` of the feature array. -/
theorem emb_feat (t : Fin cfg0.N) (p : Fin 10000) (q : Fin 128) (h : t.val * 10000 + p.val < 100000) :
    ((cfg0.win 0).blk t).view.emb (ix2 p q) = ix2 (⟨t.val * 10000 + p.val, h⟩ : Fin 100000) q := by
  obtain ⟨e0, e1, -⟩ := idx t
  funext a; apply Fin.ext
  match a with
  | ⟨0, _⟩ => show win0_0.index t (0 : Fin 2) * 10000 + 1 * p.val = t.val * 10000 + p.val; omega
  | ⟨1, _⟩ => show win0_0.index t (1 : Fin 2) * 128 + 1 * q.val = q.val; omega

/-- The weight block at any point is the whole weight array. -/
theorem emb_wts (t : Fin cfg0.N) (k q : Fin 128) : ((cfg0.win 1).blk t).view.emb (ix2 k q) = ix2 k q := by
  obtain ⟨-, -, e2, e3, -⟩ := idx t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias block at any point is the whole one-row bias. -/
theorem emb_bias (t : Fin cfg0.N) (u : Fin 1) (q : Fin 128) : ((cfg0.win 2).blk t).view.emb (ix2 u q) = ix2 u q := by
  obtain ⟨-, -, -, -, e4, e5, -⟩ := idx t
  funext a; apply Fin.ext
  match a with
  | ⟨0, _⟩ => show win0_2.index t (0 : Fin 2) * 1 + 1 * u.val = u.val; omega
  | ⟨1, _⟩ => show win0_2.index t (1 : Fin 2) * 128 + 1 * q.val = q.val; omega

/-- Row `p` of the result tile at point `t` is row `t · 10000 + p` of the result array. -/
theorem emb_out (t : Fin cfg0.N) (p : Fin 10000) (q : Fin 128) (h : t.val * 10000 + p.val < 100000) :
    ((cfg0.win 3).blk t).view.emb (ix2 p q) = ix2 (⟨t.val * 10000 + p.val, h⟩ : Fin 100000) q := by
  obtain ⟨-, -, -, -, -, -, e6, e7⟩ := idx t
  funext a; apply Fin.ext
  match a with
  | ⟨0, _⟩ => show win0_3.index t (0 : Fin 2) * 10000 + 1 * p.val = t.val * 10000 + p.val; omega
  | ⟨1, _⟩ => show win0_3.index t (1 : Fin 2) * 128 + 1 * q.val = q.val; omega

/-- WHAT POINT `t` WRITES BACK is tile `t` of the node messages of the arrays as the kernel finds them; `b` is the
    bias as a vector, the one-row array the kernel reads being that vector laid out as a row (`hb`). -/
theorem flushed_eq (c : Dev nD) (t : Fin cfg0.N) (b : Row 128)
    (hb : ∀ q : Fin 128, V c main_v0 (ix2 (0 : Fin 1) q) = b (ix1 q)) :
    (dat0 (F := Ideal) V c).flushed 3 t
      = ((cfg0.win 3).blk t).view.read (Elt Ideal) (linSig (V c main_arg0) (V c main_arg4) b) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x128) hz, View.ld_unit_zero (S := S1x128) hz]
  have hN : grid0.N = 10 := N_0
  have ht : t.val < 10 := by have h : t.val < grid0.N := t.isLt; omega
  funext j
  obtain ⟨p, q, rfl⟩ : ∃ (p : Fin 10000) (q : Fin 128), j = ix2 p q := ⟨j 0, j 1, eq_ix2 j⟩
  have hp : p.val < 10000 := p.isLt
  have hrow : t.val * 10000 + p.val < 100000 := by omega
  show k0_pay1 (F := Ideal) (iblk0 V c 0 t) (iblk0 V c 1 t) (iblk0 V c 2 t) (ix2 p q)
      = linSig (V c main_arg0) (V c main_arg4) b (((cfg0.win 3).blk t).view.emb (ix2 p q))
  rw [emb_out t p q hrow, linSig_ix2, nodeMsg_at]
  unfold linSigAt
  refine congrArg Ideal.logistic (congrArg₂ (· + ·) (Finset.sum_congr rfl fun k _ => congrArg₂ (· * ·) ?_ ?_) ?_)
  · show V c main_arg0 (((cfg0.win 0).blk t).view.emb (ix2 p k)) = _
    rw [emb_feat t p k hrow]
  · show V c main_arg4 (((cfg0.win 1).blk t).view.emb (ix2 k q)) = _
    rw [emb_wts t k q]
  · show V c main_v0 (((cfg0.win 2).blk t).view.emb (ix2 (0 : Fin 1) q)) = _
    rw [emb_bias t 0 q]
    exact hb q

/-- An entry of the result array is in point `t`'s tile iff each of its coordinates is in the tile's range. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- Row `r` of the result lies in the tile of point `r / 10000`: the ten tiles cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := N_0
  have hlt : (i 0).val / 10000 < grid0.N := by omega
  obtain ⟨-, -, -, -, -, -, e6, e7⟩ := idx (⟨(i 0).val / 10000, hlt⟩ : Fin cfg0.N)
  have e6' : win0_3.index (⟨(i 0).val / 10000, hlt⟩ : Fin cfg0.N) (0 : Fin 2) = (i 0).val / 10000 := e6
  refine ⟨⟨(i 0).val / 10000, hlt⟩, flush0_3 _, ?_⟩
  rw [mem_blk]
  intro a
  match a with
  | ⟨0, _⟩ =>
    show win0_3.index (⟨(i 0).val / 10000, hlt⟩ : Fin cfg0.N) (0 : Fin 2) * 10000 ≤ (i 0).val ∧ (i 0).val < win0_3.index (⟨(i 0).val / 10000, hlt⟩ : Fin cfg0.N) (0 : Fin 2) * 10000 + 10000
    omega
  | ⟨1, _⟩ =>
    show win0_3.index (⟨(i 0).val / 10000, hlt⟩ : Fin cfg0.N) (1 : Fin 2) * 128 ≤ (i 1).val ∧ (i 1).val < win0_3.index (⟨(i 0).val / 10000, hlt⟩ : Fin cfg0.N) (1 : Fin 2) * 128 + 128
    omega

/-- THE ARRAY the first kernel leaves: every node's message, as one function of the arrays it found. -/
theorem array_eq (c : Dev nD) (b : Row 128) (hb : ∀ q : Fin 128, V c main_v0 (ix2 (0 : Fin 1) q) = b (ix1 q)) :
    (dat0 (F := Ideal) V c).arrAt 3 cfg0.N = linSig (V c main_arg0) (V c main_arg4) b :=
  (dat0 (F := Ideal) V c).arrAt_eq_of_cover 3 _ (fun t _ => flushed_eq V c t b hb) cover

end Cert.KernelIdeal.NodeMsgArray

end
-- ==== Proof.EdgeArrays.lean ====
/-
  The two arrays the second kernel leaves: every hyperedge's message, and every hyperedge's updated features.

  The 20000 hyperedge rows are cut into five tiles of 4000 rows; point `t` reads tile `t` of the edge features and
  tile `t` of the sums the edges received, the upper and the lower 128 rows of the 256-row weight matrix as two
  separate 128 × 128 arrays, and five one-row tables (a bias, and the scale, shift, mean and variance of the
  normalisation), and writes tile `t` of each result.  Row `p` of tile `t` is row `t · 4000 + p` of an array, so what
  point `t` writes back is tile `t` of one function of the arrays as the kernel finds them: for the message, at
  `(r, q)`, row `r` of the features against the upper weights plus row `r` of the received sums against the lower
  weights, at column `q`, plus the bias, through the logistic function; for the update, the entry normalised,
  scaled and shifted, plus the received sum's entry, through the logistic function.  Row `r` lies in tile
  `r / 4000`, so the five tiles cover each array.
-/
import proofs.«111269_j15118284882724_2_alg».proof.Proof.Gen.KernelIdeal.Frame
import proofs.«111269_j15118284882724_2_alg».proof.Proof.Bodies

set_option maxRecDepth 16384

noncomputable section

open scoped BigOperators

namespace Cert.KernelIdeal.EdgeArrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.HyperMsg

variable (V : (c : Dev nD) → (b : Ref sig .tc) → Buf (Elt Ideal) ((c : Thread nD τ).loc b))

theorem hz : (![0, 0] : Fin 2 → Nat) = fun _ => 0 := funext fun a => by fin_cases a <;> rfl

/-- The index maps over the five points: the two input tiles and the two result tiles move down one tile per point,
    the two weight blocks and the five one-row tables stay. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-! ## Where an entry of a tile, a weight block or a one-row table sits in its array -/

theorem emb_feat (t : Fin cfg1.N) (p : Fin 4000) (q : Fin 128) (h : t.val * 4000 + p.val < 20000) :
    ((cfg1.win 0).blk t).view.emb (ix2 p q) = ix2 (⟨t.val * 4000 + p.val, h⟩ : Fin 20000) q := by
  obtain ⟨e0, e1, -⟩ := idx t
  funext a; apply Fin.ext
  match a with
  | ⟨0, _⟩ => show win1_0.index t (0 : Fin 2) * 4000 + 1 * p.val = t.val * 4000 + p.val; omega
  | ⟨1, _⟩ => show win1_0.index t (1 : Fin 2) * 128 + 1 * q.val = q.val; omega

theorem emb_recv (t : Fin cfg1.N) (p : Fin 4000) (q : Fin 128) (h : t.val * 4000 + p.val < 20000) :
    ((cfg1.win 1).blk t).view.emb (ix2 p q) = ix2 (⟨t.val * 4000 + p.val, h⟩ : Fin 20000) q := by
  obtain ⟨-, -, e0, e1, -⟩ := idx t
  funext a; apply Fin.ext
  match a with
  | ⟨0, _⟩ => show win1_1.index t (0 : Fin 2) * 4000 + 1 * p.val = t.val * 4000 + p.val; omega
  | ⟨1, _⟩ => show win1_1.index t (1 : Fin 2) * 128 + 1 * q.val = q.val; omega

theorem emb_upper (t : Fin cfg1.N) (k q : Fin 128) : ((cfg1.win 2).blk t).view.emb (ix2 k q) = ix2 k q := by
  obtain ⟨-, -, -, -, e0, e1, -⟩ := idx t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb_lower (t : Fin cfg1.N) (k q : Fin 128) : ((cfg1.win 3).blk t).view.emb (ix2 k q) = ix2 k q := by
  obtain ⟨-, -, -, -, -, -, e0, e1, -⟩ := idx t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb_bias (t : Fin cfg1.N) (u : Fin 1) (q : Fin 128) : ((cfg1.win 4).blk t).view.emb (ix2 u q) = ix2 u q := by
  obtain ⟨-, -, -, -, -, -, -, -, e0, e1, -⟩ := idx t
  funext a; apply Fin.ext
  match a with
  | ⟨0, _⟩ => show win1_4.index t (0 : Fin 2) * 1 + 1 * u.val = u.val; omega
  | ⟨1, _⟩ => show win1_4.index t (1 : Fin 2) * 128 + 1 * q.val = q.val; omega

theorem emb_scale (t : Fin cfg1.N) (u : Fin 1) (q : Fin 128) : ((cfg1.win 5).blk t).view.emb (ix2 u q) = ix2 u q := by
  obtain ⟨-, -, -, -, -, -, -, -, -, -, e0, e1, -⟩ := idx t
  funext a; apply Fin.ext
  match a with
  | ⟨0, _⟩ => show win1_5.index t (0 : Fin 2) * 1 + 1 * u.val = u.val; omega
  | ⟨1, _⟩ => show win1_5.index t (1 : Fin 2) * 128 + 1 * q.val = q.val; omega

theorem emb_shift (t : Fin cfg1.N) (u : Fin 1) (q : Fin 128) : ((cfg1.win 6).blk t).view.emb (ix2 u q) = ix2 u q := by
  obtain ⟨-, -, -, -, -, -, -, -, -, -, -, -, e0, e1, -⟩ := idx t
  funext a; apply Fin.ext
  match a with
  | ⟨0, _⟩ => show win1_6.index t (0 : Fin 2) * 1 + 1 * u.val = u.val; omega
  | ⟨1, _⟩ => show win1_6.index t (1 : Fin 2) * 128 + 1 * q.val = q.val; omega

theorem emb_mean (t : Fin cfg1.N) (u : Fin 1) (q : Fin 128) : ((cfg1.win 7).blk t).view.emb (ix2 u q) = ix2 u q := by
  obtain ⟨-, -, -, -, -, -, -, -, -, -, -, -, -, -, e0, e1, -⟩ := idx t
  funext a; apply Fin.ext
  match a with
  | ⟨0, _⟩ => show win1_7.index t (0 : Fin 2) * 1 + 1 * u.val = u.val; omega
  | ⟨1, _⟩ => show win1_7.index t (1 : Fin 2) * 128 + 1 * q.val = q.val; omega

theorem emb_var (t : Fin cfg1.N) (u : Fin 1) (q : Fin 128) : ((cfg1.win 8).blk t).view.emb (ix2 u q) = ix2 u q := by
  obtain ⟨-, -, -, -, -, -, -, -, -, -, -, -, -, -, -, -, e0, e1, -⟩ := idx t
  funext a; apply Fin.ext
  match a with
  | ⟨0, _⟩ => show win1_8.index t (0 : Fin 2) * 1 + 1 * u.val = u.val; omega
  | ⟨1, _⟩ => show win1_8.index t (1 : Fin 2) * 128 + 1 * q.val = q.val; omega

theorem emb_msg (t : Fin cfg1.N) (p : Fin 4000) (q : Fin 128) (h : t.val * 4000 + p.val < 20000) :
    ((cfg1.win 9).blk t).view.emb (ix2 p q) = ix2 (⟨t.val * 4000 + p.val, h⟩ : Fin 20000) q := by
  obtain ⟨-, -, -, -, -, -, -, -, -, -, -, -, -, -, -, -, -, -, e0, e1, -⟩ := idx t
  funext a; apply Fin.ext
  match a with
  | ⟨0, _⟩ => show win1_9.index t (0 : Fin 2) * 4000 + 1 * p.val = t.val * 4000 + p.val; omega
  | ⟨1, _⟩ => show win1_9.index t (1 : Fin 2) * 128 + 1 * q.val = q.val; omega

theorem emb_upd (t : Fin cfg1.N) (p : Fin 4000) (q : Fin 128) (h : t.val * 4000 + p.val < 20000) :
    ((cfg1.win 10).blk t).view.emb (ix2 p q) = ix2 (⟨t.val * 4000 + p.val, h⟩ : Fin 20000) q := by
  obtain ⟨-, -, -, -, -, -, -, -, -, -, -, -, -, -, -, -, -, -, -, -, e0, e1⟩ := idx t
  funext a; apply Fin.ext
  match a with
  | ⟨0, _⟩ => show win1_10.index t (0 : Fin 2) * 4000 + 1 * p.val = t.val * 4000 + p.val; omega
  | ⟨1, _⟩ => show win1_10.index t (1 : Fin 2) * 128 + 1 * q.val = q.val; omega

/-! ## The hyperedges' messages -/

/-- WHAT POINT `t` WRITES BACK to the message array is tile `t` of the hyperedge messages. `W` is the 256-row weight
    matrix, the two weight arrays the kernel reads being its upper and lower halves (`hWt`, `hWb`); `b` is the bias
    as a vector (`hb`). -/
theorem msg_flushed (c : Dev nD) (t : Fin cfg1.N) (W : Mat 256 128) (b : Row 128)
    (hWt : ∀ (k q : Fin 128), V c main_v12 (ix2 k q) = W (ix2 (⟨k.val, by omega⟩ : Fin 256) q))
    (hWb : ∀ (k q : Fin 128), V c main_v13 (ix2 k q) = W (ix2 (⟨128 + k.val, by omega⟩ : Fin 256) q))
    (hb : ∀ q : Fin 128, V c main_v14 (ix2 (0 : Fin 1) q) = b (ix1 q)) :
    (dat1 (F := Ideal) V c).flushed 9 t
      = ((cfg1.win 9).blk t).view.read (Elt Ideal) (linSig2 (V c main_arg1) (V c main_v11) W b) := by
  show (cfg1.win 9).cut (grid1.coords t) ((dat1 (F := Ideal) V c).after 9 t) = _
  rw [after1_9]
  unfold out1_9
  rw [View.canon_unit_zero hz]
  simp only [View.ld_unit_zero (S := S4000x128) hz, View.ld_unit_zero (S := S128x128) hz, View.ld_unit_zero (S := S1x128) hz]
  have hN : grid1.N = 5 := N_1
  have ht : t.val < 5 := by have h : t.val < grid1.N := t.isLt; omega
  funext j
  obtain ⟨p, q, rfl⟩ : ∃ (p : Fin 4000) (q : Fin 128), j = ix2 p q := ⟨j 0, j 1, eq_ix2 j⟩
  have hp : p.val < 4000 := p.isLt
  have hrow : t.val * 4000 + p.val < 20000 := by omega
  show k1_pay3 (F := Ideal) (iblk1 V c 0 t) (iblk1 V c 1 t) (iblk1 V c 2 t) (iblk1 V c 3 t) (iblk1 V c 4 t) (ix2 p q)
      = linSig2 (V c main_arg1) (V c main_v11) W b (((cfg1.win 9).blk t).view.emb (ix2 p q))
  rw [emb_msg t p q hrow, linSig2_ix2, edgeMsg_at]
  unfold linSig2At
  refine congrArg Ideal.logistic (congrArg₂ (· + ·) (congrArg₂ (· + ·)
    (Finset.sum_congr rfl fun k _ => congrArg₂ (· * ·) ?_ ?_) (Finset.sum_congr rfl fun k _ => congrArg₂ (· * ·) ?_ ?_)) ?_)
  · show V c main_arg1 (((cfg1.win 0).blk t).view.emb (ix2 p k)) = _
    rw [emb_feat t p k hrow]
  · show V c main_v12 (((cfg1.win 2).blk t).view.emb (ix2 k q)) = _
    rw [emb_upper t k q]
    exact hWt k q
  · show V c main_v11 (((cfg1.win 1).blk t).view.emb (ix2 p k)) = _
    rw [emb_recv t p k hrow]
  · show V c main_v13 (((cfg1.win 3).blk t).view.emb (ix2 k q)) = _
    rw [emb_lower t k q]
    exact hWb k q
  · show V c main_v14 (((cfg1.win 4).blk t).view.emb (ix2 (0 : Fin 1) q)) = _
    rw [emb_bias t 0 q]
    exact hb q

theorem msg_mem_blk (t : Fin cfg1.N) (i : S20000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v19_0).slice (win1_9.rect t)).set ↔ _
  rw [View.set_slice_whole, Rect.mem_set_unit]
  exact Iff.rfl

/-- Row `r` of the message array lies in the tile of point `r / 4000`. -/
theorem msg_cover (i : S20000x128.Idx) :
    ∃ t : Fin cfg1.N, (cfg1.win 9).flush t = true ∧ i ∈ ((cfg1.win 9).blk t).view.set := by
  have hi0 : (i 0).val < 20000 := (i 0).isLt
  have hi1 : (i 1).val < 128 := (i 1).isLt
  have hN : grid1.N = 5 := N_1
  have hlt : (i 0).val / 4000 < grid1.N := by omega
  obtain ⟨-, -, -, -, -, -, -, -, -, -, -, -, -, -, -, -, -, -, e0, e1, -⟩ := idx (⟨(i 0).val / 4000, hlt⟩ : Fin cfg1.N)
  have e0' : win1_9.index (⟨(i 0).val / 4000, hlt⟩ : Fin cfg1.N) (0 : Fin 2) = (i 0).val / 4000 := e0
  refine ⟨⟨(i 0).val / 4000, hlt⟩, flush1_9 _, ?_⟩
  rw [msg_mem_blk]
  intro a
  match a with
  | ⟨0, _⟩ =>
    show win1_9.index (⟨(i 0).val / 4000, hlt⟩ : Fin cfg1.N) (0 : Fin 2) * 4000 ≤ (i 0).val ∧ (i 0).val < win1_9.index (⟨(i 0).val / 4000, hlt⟩ : Fin cfg1.N) (0 : Fin 2) * 4000 + 4000
    omega
  | ⟨1, _⟩ =>
    show win1_9.index (⟨(i 0).val / 4000, hlt⟩ : Fin cfg1.N) (1 : Fin 2) * 128 ≤ (i 1).val ∧ (i 1).val < win1_9.index (⟨(i 0).val / 4000, hlt⟩ : Fin cfg1.N) (1 : Fin 2) * 128 + 128
    omega

/-- THE MESSAGE ARRAY the second kernel leaves, as one function of the arrays it found. -/
theorem msg_array (c : Dev nD) (W : Mat 256 128) (b : Row 128)
    (hWt : ∀ (k q : Fin 128), V c main_v12 (ix2 k q) = W (ix2 (⟨k.val, by omega⟩ : Fin 256) q))
    (hWb : ∀ (k q : Fin 128), V c main_v13 (ix2 k q) = W (ix2 (⟨128 + k.val, by omega⟩ : Fin 256) q))
    (hb : ∀ q : Fin 128, V c main_v14 (ix2 (0 : Fin 1) q) = b (ix1 q)) :
    (dat1 (F := Ideal) V c).arrAt 9 cfg1.N = linSig2 (V c main_arg1) (V c main_v11) W b :=
  (dat1 (F := Ideal) V c).arrAt_eq_of_cover 9 _ (fun t _ => msg_flushed V c t W b hWt hWb hb) msg_cover

/-! ## The hyperedges' updated features -/

/-- WHAT POINT `t` WRITES BACK to the update array is tile `t` of the updated edge features; `g`, `be`, `mu`, `var` are
    the scale, shift, mean and variance as vectors, the four one-row arrays the kernel reads being those vectors laid
    out as rows. -/
theorem upd_flushed (c : Dev nD) (t : Fin cfg1.N) (g be mu var : Row 128)
    (hg : ∀ q : Fin 128, V c main_v15 (ix2 (0 : Fin 1) q) = g (ix1 q))
    (hbe : ∀ q : Fin 128, V c main_v16 (ix2 (0 : Fin 1) q) = be (ix1 q))
    (hmu : ∀ q : Fin 128, V c main_v17 (ix2 (0 : Fin 1) q) = mu (ix1 q))
    (hvar : ∀ q : Fin 128, V c main_v18 (ix2 (0 : Fin 1) q) = var (ix1 q)) :
    (dat1 (F := Ideal) V c).flushed 10 t
      = ((cfg1.win 10).blk t).view.read (Elt Ideal) (bnSig (V c main_arg1) g be mu var (V c main_v11)) := by
  show (cfg1.win 10).cut (grid1.coords t) ((dat1 (F := Ideal) V c).after 10 t) = _
  rw [after1_10]
  unfold out1_10
  rw [View.canon_unit_zero hz]
  simp only [View.ld_unit_zero (S := S4000x128) hz, View.ld_unit_zero (S := S1x128) hz]
  have hN : grid1.N = 5 := N_1
  have ht : t.val < 5 := by have h : t.val < grid1.N := t.isLt; omega
  funext j
  obtain ⟨p, q, rfl⟩ : ∃ (p : Fin 4000) (q : Fin 128), j = ix2 p q := ⟨j 0, j 1, eq_ix2 j⟩
  have hp : p.val < 4000 := p.isLt
  have hrow : t.val * 4000 + p.val < 20000 := by omega
  show k1_pay1 (F := Ideal) (k1_pay2 (iblk1 V c 1 t)) (k1_pay4 (iblk1 V c 0 t) (iblk1 V c 8 t) (iblk1 V c 7 t) (iblk1 V c 5 t)) (iblk1 V c 6 t) (ix2 p q)
      = bnSig (V c main_arg1) g be mu var (V c main_v11) (((cfg1.win 10).blk t).view.emb (ix2 p q))
  rw [emb_upd t p q hrow, bnSig_ix2, edgeUpd_at]
  unfold bnSigAt
  refine congrArg Ideal.logistic (congrArg₂ (· + ·) (congrArg₂ (· + ·) (congrArg₂ (· * ·) (congrArg₂ (· * ·) (congrArg₂ (· - ·) ?_ ?_)
    (congrArg Ideal.rsqrt (congrArg₂ (· + ·) ?_ rfl))) ?_) ?_) ?_)
  · show V c main_arg1 (((cfg1.win 0).blk t).view.emb (ix2 p q)) = _
    rw [emb_feat t p q hrow]
  · show V c main_v17 (((cfg1.win 7).blk t).view.emb (ix2 (0 : Fin 1) q)) = _
    rw [emb_mean t 0 q]
    exact hmu q
  · show V c main_v18 (((cfg1.win 8).blk t).view.emb (ix2 (0 : Fin 1) q)) = _
    rw [emb_var t 0 q]
    exact hvar q
  · show V c main_v15 (((cfg1.win 5).blk t).view.emb (ix2 (0 : Fin 1) q)) = _
    rw [emb_scale t 0 q]
    exact hg q
  · show V c main_v16 (((cfg1.win 6).blk t).view.emb (ix2 (0 : Fin 1) q)) = _
    rw [emb_shift t 0 q]
    exact hbe q
  · show V c main_v11 (((cfg1.win 1).blk t).view.emb (ix2 p q)) = _
    rw [emb_recv t p q hrow]

theorem upd_mem_blk (t : Fin cfg1.N) (i : S20000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v19_1).slice (win1_10.rect t)).set ↔ _
  rw [View.set_slice_whole, Rect.mem_set_unit]
  exact Iff.rfl

/-- Row `r` of the update array lies in the tile of point `r / 4000`. -/
theorem upd_cover (i : S20000x128.Idx) :
    ∃ t : Fin cfg1.N, (cfg1.win 10).flush t = true ∧ i ∈ ((cfg1.win 10).blk t).view.set := by
  have hi0 : (i 0).val < 20000 := (i 0).isLt
  have hi1 : (i 1).val < 128 := (i 1).isLt
  have hN : grid1.N = 5 := N_1
  have hlt : (i 0).val / 4000 < grid1.N := by omega
  obtain ⟨-, -, -, -, -, -, -, -, -, -, -, -, -, -, -, -, -, -, -, -, e0, e1⟩ := idx (⟨(i 0).val / 4000, hlt⟩ : Fin cfg1.N)
  have e0' : win1_10.index (⟨(i 0).val / 4000, hlt⟩ : Fin cfg1.N) (0 : Fin 2) = (i 0).val / 4000 := e0
  refine ⟨⟨(i 0).val / 4000, hlt⟩, flush1_10 _, ?_⟩
  rw [upd_mem_blk]
  intro a
  match a with
  | ⟨0, _⟩ =>
    show win1_10.index (⟨(i 0).val / 4000, hlt⟩ : Fin cfg1.N) (0 : Fin 2) * 4000 ≤ (i 0).val ∧ (i 0).val < win1_10.index (⟨(i 0).val / 4000, hlt⟩ : Fin cfg1.N) (0 : Fin 2) * 4000 + 4000
    omega
  | ⟨1, _⟩ =>
    show win1_10.index (⟨(i 0).val / 4000, hlt⟩ : Fin cfg1.N) (1 : Fin 2) * 128 ≤ (i 1).val ∧ (i 1).val < win1_10.index (⟨(i 0).val / 4000, hlt⟩ : Fin cfg1.N) (1 : Fin 2) * 128 + 128
    omega

/-- THE UPDATE ARRAY the second kernel leaves, as one function of the arrays it found. -/
theorem upd_array (c : Dev nD) (g be mu var : Row 128)
    (hg : ∀ q : Fin 128, V c main_v15 (ix2 (0 : Fin 1) q) = g (ix1 q))
    (hbe : ∀ q : Fin 128, V c main_v16 (ix2 (0 : Fin 1) q) = be (ix1 q))
    (hmu : ∀ q : Fin 128, V c main_v17 (ix2 (0 : Fin 1) q) = mu (ix1 q))
    (hvar : ∀ q : Fin 128, V c main_v18 (ix2 (0 : Fin 1) q) = var (ix1 q)) :
    (dat1 (F := Ideal) V c).arrAt 10 cfg1.N = bnSig (V c main_arg1) g be mu var (V c main_v11) :=
  (dat1 (F := Ideal) V c).arrAt_eq_of_cover 10 _ (fun t _ => upd_flushed V c t g be mu var hg hbe hmu hvar) upd_cover

end Cert.KernelIdeal.EdgeArrays

end
-- ==== Proof.NodeUpdArray.lean ====
/-
  The array the third kernel leaves: every node's updated features.

  The 100000 node rows are cut into twenty tiles of 5000 rows; point `t` reads tile `t` of the node features and tile
  `t` of the sums the nodes received, and four one-row tables (the scale, shift, mean and variance of the
  normalisation), and writes tile `t` of the result.  Row `p` of tile `t` is row `t · 5000 + p` of an array, so what
  point `t` writes back is tile `t` of one function of the arrays as the kernel finds them: at `(r, q)`, the feature
  entry normalised by column `q`'s statistics, scaled and shifted, plus the received sum's entry, through the
  logistic function.  Row `r` lies in tile `r / 5000`, so the twenty tiles cover the array.
-/
import proofs.«111269_j15118284882724_2_alg».proof.Proof.Gen.KernelIdeal.Frame
import proofs.«111269_j15118284882724_2_alg».proof.Proof.Bodies

set_option maxRecDepth 16384

noncomputable section

open scoped BigOperators

namespace Cert.KernelIdeal.NodeUpdArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.HyperMsg

variable (V : (c : Dev nD) → (b : Ref sig .tc) → Buf (Elt Ideal) ((c : Thread nD τ).loc b))

theorem hz : (![0, 0] : Fin 2 → Nat) = fun _ => 0 := funext fun a => by fin_cases a <;> rfl

/-- The index maps over the twenty points: the two input tiles and the result tile move down one tile per point, the
    four one-row tables stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## Where an entry of a tile or a one-row table sits in its array -/

theorem emb_feat (t : Fin cfg2.N) (p : Fin 5000) (q : Fin 128) (h : t.val * 5000 + p.val < 100000) :
    ((cfg2.win 0).blk t).view.emb (ix2 p q) = ix2 (⟨t.val * 5000 + p.val, h⟩ : Fin 100000) q := by
  obtain ⟨e0, e1, -⟩ := idx t
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

theorem emb_scale (t : Fin cfg2.N) (u : Fin 1) (q : Fin 128) : ((cfg2.win 1).blk t).view.emb (ix2 u q) = ix2 u q := by
  obtain ⟨-, -, e0, e1, -⟩ := idx t
  funext a; apply Fin.ext
  match a with
  | ⟨0, _⟩ => show win2_1.index t (0 : Fin 2) * 1 + 1 * u.val = u.val; omega
  | ⟨1, _⟩ => show win2_1.index t (1 : Fin 2) * 128 + 1 * q.val = q.val; omega

theorem emb_shift (t : Fin cfg2.N) (u : Fin 1) (q : Fin 128) : ((cfg2.win 2).blk t).view.emb (ix2 u q) = ix2 u q := by
  obtain ⟨-, -, -, -, e0, e1, -⟩ := idx t
  funext a; apply Fin.ext
  match a with
  | ⟨0, _⟩ => show win2_2.index t (0 : Fin 2) * 1 + 1 * u.val = u.val; omega
  | ⟨1, _⟩ => show win2_2.index t (1 : Fin 2) * 128 + 1 * q.val = q.val; omega

theorem emb_mean (t : Fin cfg2.N) (u : Fin 1) (q : Fin 128) : ((cfg2.win 3).blk t).view.emb (ix2 u q) = ix2 u q := by
  obtain ⟨-, -, -, -, -, -, e0, e1, -⟩ := idx t
  funext a; apply Fin.ext
  match a with
  | ⟨0, _⟩ => show win2_3.index t (0 : Fin 2) * 1 + 1 * u.val = u.val; omega
  | ⟨1, _⟩ => show win2_3.index t (1 : Fin 2) * 128 + 1 * q.val = q.val; omega

theorem emb_var (t : Fin cfg2.N) (u : Fin 1) (q : Fin 128) : ((cfg2.win 4).blk t).view.emb (ix2 u q) = ix2 u q := by
  obtain ⟨-, -, -, -, -, -, -, -, e0, e1, -⟩ := idx t
  funext a; apply Fin.ext
  match a with
  | ⟨0, _⟩ => show win2_4.index t (0 : Fin 2) * 1 + 1 * u.val = u.val; omega
  | ⟨1, _⟩ => show win2_4.index t (1 : Fin 2) * 128 + 1 * q.val = q.val; omega

theorem emb_recv (t : Fin cfg2.N) (p : Fin 5000) (q : Fin 128) (h : t.val * 5000 + p.val < 100000) :
    ((cfg2.win 5).blk t).view.emb (ix2 p q) = ix2 (⟨t.val * 5000 + p.val, h⟩ : Fin 100000) q := by
  obtain ⟨-, -, -, -, -, -, -, -, -, -, e0, e1, -⟩ := idx t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

theorem emb_out (t : Fin cfg2.N) (p : Fin 5000) (q : Fin 128) (h : t.val * 5000 + p.val < 100000) :
    ((cfg2.win 6).blk t).view.emb (ix2 p q) = ix2 (⟨t.val * 5000 + p.val, h⟩ : Fin 100000) q := by
  obtain ⟨-, -, -, -, -, -, -, -, -, -, -, -, e0, e1⟩ := idx t
  funext a; apply Fin.ext
  match a with
  | ⟨0, _⟩ => show win2_6.index t (0 : Fin 2) * 5000 + 1 * p.val = t.val * 5000 + p.val; omega
  | ⟨1, _⟩ => show win2_6.index t (1 : Fin 2) * 128 + 1 * q.val = q.val; omega

/-- WHAT POINT `t` WRITES BACK is tile `t` of the updated node features; `g`, `be`, `mu`, `var` are the scale, shift,
    mean and variance as vectors, the four one-row arrays the kernel reads being those vectors laid out as rows. -/
theorem flushed_eq (c : Dev nD) (t : Fin cfg2.N) (g be mu var : Row 128)
    (hg : ∀ q : Fin 128, V c main_v30 (ix2 (0 : Fin 1) q) = g (ix1 q))
    (hbe : ∀ q : Fin 128, V c main_v31 (ix2 (0 : Fin 1) q) = be (ix1 q))
    (hmu : ∀ q : Fin 128, V c main_v32 (ix2 (0 : Fin 1) q) = mu (ix1 q))
    (hvar : ∀ q : Fin 128, V c main_v33 (ix2 (0 : Fin 1) q) = var (ix1 q)) :
    (dat2 (F := Ideal) V c).flushed 6 t
      = ((cfg2.win 6).blk t).view.read (Elt Ideal) (bnSig (V c main_arg0) g be mu var (V c main_v29)) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S1x128) hz]
  have hN : grid2.N = 20 := N_2
  have ht : t.val < 20 := by have h : t.val < grid2.N := t.isLt; omega
  funext j
  obtain ⟨p, q, rfl⟩ : ∃ (p : Fin 5000) (q : Fin 128), j = ix2 p q := ⟨j 0, j 1, eq_ix2 j⟩
  have hp : p.val < 5000 := p.isLt
  have hrow : t.val * 5000 + p.val < 100000 := by omega
  show k2_pay1 (F := Ideal) (iblk2 V c 0 t) (iblk2 V c 4 t) (iblk2 V c 3 t) (iblk2 V c 1 t) (iblk2 V c 2 t) (iblk2 V c 5 t) (ix2 p q)
      = bnSig (V c main_arg0) g be mu var (V c main_v29) (((cfg2.win 6).blk t).view.emb (ix2 p q))
  rw [emb_out t p q hrow, bnSig_ix2, nodeUpd_at]
  unfold bnSigAt
  refine congrArg Ideal.logistic (congrArg₂ (· + ·) (congrArg₂ (· + ·) (congrArg₂ (· * ·) (congrArg₂ (· * ·) (congrArg₂ (· - ·) ?_ ?_)
    (congrArg Ideal.rsqrt (congrArg₂ (· + ·) ?_ rfl))) ?_) ?_) ?_)
  · show V c main_arg0 (((cfg2.win 0).blk t).view.emb (ix2 p q)) = _
    rw [emb_feat t p q hrow]
  · show V c main_v32 (((cfg2.win 3).blk t).view.emb (ix2 (0 : Fin 1) q)) = _
    rw [emb_mean t 0 q]
    exact hmu q
  · show V c main_v33 (((cfg2.win 4).blk t).view.emb (ix2 (0 : Fin 1) q)) = _
    rw [emb_var t 0 q]
    exact hvar q
  · show V c main_v30 (((cfg2.win 1).blk t).view.emb (ix2 (0 : Fin 1) q)) = _
    rw [emb_scale t 0 q]
    exact hg q
  · show V c main_v31 (((cfg2.win 2).blk t).view.emb (ix2 (0 : Fin 1) q)) = _
    rw [emb_shift t 0 q]
    exact hbe q
  · show V c main_v29 (((cfg2.win 5).blk t).view.emb (ix2 p q)) = _
    rw [emb_recv t p q hrow]

theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v34).slice (win2_6.rect t)).set ↔ _
  rw [View.set_slice_whole, Rect.mem_set_unit]
  exact Iff.rfl

/-- Row `r` of the result lies in the tile of point `r / 5000`: the twenty tiles cover the array. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 20 := N_2
  have hlt : (i 0).val / 5000 < grid2.N := by omega
  obtain ⟨-, -, -, -, -, -, -, -, -, -, -, -, e0, e1⟩ := idx (⟨(i 0).val / 5000, hlt⟩ : Fin cfg2.N)
  have e0' : win2_6.index (⟨(i 0).val / 5000, hlt⟩ : Fin cfg2.N) (0 : Fin 2) = (i 0).val / 5000 := e0
  refine ⟨⟨(i 0).val / 5000, hlt⟩, flush2_6 _, ?_⟩
  rw [mem_blk]
  intro a
  match a with
  | ⟨0, _⟩ =>
    show win2_6.index (⟨(i 0).val / 5000, hlt⟩ : Fin cfg2.N) (0 : Fin 2) * 5000 ≤ (i 0).val ∧ (i 0).val < win2_6.index (⟨(i 0).val / 5000, hlt⟩ : Fin cfg2.N) (0 : Fin 2) * 5000 + 5000
    omega
  | ⟨1, _⟩ =>
    show win2_6.index (⟨(i 0).val / 5000, hlt⟩ : Fin cfg2.N) (1 : Fin 2) * 128 ≤ (i 1).val ∧ (i 1).val < win2_6.index (⟨(i 0).val / 5000, hlt⟩ : Fin cfg2.N) (1 : Fin 2) * 128 + 128
    omega

/-- THE ARRAY the third kernel leaves: every node's updated features, as one function of the arrays it found. -/
theorem array_eq (c : Dev nD) (g be mu var : Row 128)
    (hg : ∀ q : Fin 128, V c main_v30 (ix2 (0 : Fin 1) q) = g (ix1 q))
    (hbe : ∀ q : Fin 128, V c main_v31 (ix2 (0 : Fin 1) q) = be (ix1 q))
    (hmu : ∀ q : Fin 128, V c main_v32 (ix2 (0 : Fin 1) q) = mu (ix1 q))
    (hvar : ∀ q : Fin 128, V c main_v33 (ix2 (0 : Fin 1) q) = var (ix1 q)) :
    (dat2 (F := Ideal) V c).arrAt 6 cfg2.N = bnSig (V c main_arg0) g be mu var (V c main_v29) :=
  (dat2 (F := Ideal) V c).arrAt_eq_of_cover 6 _ (fun t _ => flushed_eq V c t g be mu var hg hbe hmu hvar) cover

end Cert.KernelIdeal.NodeUpdArray

end
-- ==== Proof.Sums.lean ====
/-
  The two summations over incidences, each kept as ONE closed function.

  An incidence is a pair of 32-bit words, a node and a hyperedge; there are 640000 of them.  Passing messages from
  nodes to hyperedges takes, for each incidence, the message row of its node (the word read signed, a negative one
  shifted up by the number of nodes, then held inside the array) and adds it into the row of its hyperedge, starting
  from an array of zeros; passing from hyperedges back to nodes does the same with the two words' roles exchanged.
  Both programs spell these two summations with exactly the same array operations on the same index words, so the
  certificate never looks inside them: it is enough that equal message arrays go in.
-/
import proofs.«111269_j15118284882724_2_alg».proof.Proof.Gen.KernelIdeal
import Idealize.ShloMosaic.PureOps.Ideal

noncomputable section

namespace Cert.HyperMsg

open Idealize.ShloMosaic Cert.KernelIdeal Cert.KernelIdeal.Facts₀ Cert.KernelIdeal.Facts

/-- Each hyperedge's sum of the messages of its incident nodes: `msg` the nodes' messages, `incN` and `incE` the
    incidences' node and hyperedge words. -/
def edgeSums (msg : (⟨S100000x128, .f32⟩ : BufTy).Contents (Elt Ideal))
    (incN incE : (⟨S640000, .i32⟩ : BufTy).Contents (Elt Ideal)) : (⟨S20000x128, .f32⟩ : BufTy).Contents (Elt Ideal) :=
  Host.scatterAdd (F := Ideal) scatter_S20000x128_S640000x1_S640000x128_1_0_0_1
    (broadcastInDim S20000x128 ![] bcast_S_S20000x128 (constant (F := Ideal) S_ .f32 0x00000000#32))
    (broadcastInDim S640000x1 ![0] bcast_S640000_S640000x1_0 incE)
    (Host.gather gather_S100000x128_S640000x1_S640000x128_1_0_n_n_0_1_1128 msg
      (broadcastInDim S640000x1 ![0] bcast_S640000_S640000x1_0
        (select (cmpi .slt incN (broadcastInDim S640000 ![] bcast_S_S640000 (constantI S_ 32 0#32)))
          (addi incN (broadcastInDim S640000 ![] bcast_S_S640000 (constantI S_ 32 100000#32))) incN)))

/-- Each node's sum of the messages of its incident hyperedges: `msg` the hyperedges' messages, `incE` and `incN` the
    incidences' hyperedge and node words. -/
def nodeSums (msg : (⟨S20000x128, .f32⟩ : BufTy).Contents (Elt Ideal))
    (incE incN : (⟨S640000, .i32⟩ : BufTy).Contents (Elt Ideal)) : (⟨S100000x128, .f32⟩ : BufTy).Contents (Elt Ideal) :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0 incN)
    (Host.gather gather_S20000x128_S640000x1_S640000x128_1_0_n_n_0_1_1128 msg
      (broadcastInDim S640000x1 ![0] bcast_S640000_S640000x1_0
        (select (cmpi .slt incE (broadcastInDim S640000 ![] bcast_S_S640000 (constantI S_ 32 0#32)))
          (addi incE (broadcastInDim S640000 ![] bcast_S_S640000 (constantI S_ 32 20000#32))) incE)))

end Cert.HyperMsg

end
-- ==== Proof.Walk.lean ====
/-
  The walk through the program's seven boundaries, read at the buffers that matter.

  Starting from the launch memory: a reshape lays the first bias out as a row; the first kernel leaves the nodes'
  messages; a stretch of array operations sums those messages over incidences into the hyperedges, cuts the 256-row
  weight matrix into its upper and lower halves and lays five vectors out as rows; the second kernel leaves the
  hyperedges' messages and their updated features; a stretch sums the hyperedges' messages over incidences into the
  nodes and lays four vectors out as rows; the third kernel leaves the nodes' updated features.  No stretch and no
  kernel writes an argument, so at every boundary an argument's buffer still holds what it held at launch.  Reading
  the walk forwards gives each boundary's new arrays as functions of the launch memory, and at the last boundary the
  two results.
-/
import proofs.«111269_j15118284882724_2_alg».proof.Proof.EndState
import proofs.«111269_j15118284882724_2_alg».proof.Proof.NodeMsgArray
import proofs.«111269_j15118284882724_2_alg».proof.Proof.EdgeArrays
import proofs.«111269_j15118284882724_2_alg».proof.Proof.NodeUpdArray
import proofs.«111269_j15118284882724_2_alg».proof.Proof.Sums
import Idealize.ShloMosaic.Lib.ValueLayout
import Idealize.ShloMosaic.Lib.StableHlo.Run

set_option maxRecDepth 16384

noncomputable section

namespace Cert.KernelIdeal.Walk

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.HyperMsg

variable (m : (ℓ : Loc nD τ sig) → Buf (Elt Ideal) ℓ) (ρ : Dev nD → PrngReg)

set_option hygiene false in
/-- A stretch of array operations leaves a buffer it does not write as it was: none of the stretch's result buffers is
    the buffer in question. -/
local macro "stretch_keeps" : tactic => `(tactic|
  exact StableHlo.after_of_forall_not_mem _ _ (List.forall_iff_forall_mem.mp (by
    simp only [hostOps0, hostOps1, hostOps2, List.Forall, StableHlo.nullary_writes, StableHlo.unary_writes,
      StableHlo.binary_writes, StableHlo.ternary_writes, StableHlo.reshape_writes, Finset.mem_singleton]
    repeat' apply And.intro
    all_goals exact StableHlo.devRef_ne_of_ne (by decide))))

/-! ## Up to the first kernel -/

theorem x0_at1 (c : Dev nD) : V1 m ρ c main_arg0 = m ((c : Thread nD τ).loc main_arg0) := by
  show W1 m ρ c (Proc.devRef .tc main_arg0) = W0 m ρ c (Proc.devRef .tc main_arg0); stretch_keeps
theorem w_at1 (c : Dev nD) : V1 m ρ c main_arg4 = m ((c : Thread nD τ).loc main_arg4) := by
  show W1 m ρ c (Proc.devRef .tc main_arg4) = W0 m ρ c (Proc.devRef .tc main_arg4); stretch_keeps

/-- The first bias laid out as a row, read at column `q`. -/
theorem bias1_row (c : Dev nD) (q : Fin 128) :
    V1 m ρ c main_v0 (ix2 (0 : Fin 1) q) = m ((c : Thread nD τ).loc main_arg5) (ix1 q) := by
  have e : V1 m ρ c main_v0 = shapeCast S1x128 (m ((c : Thread nD τ).loc main_arg5)) Facts₀.shapeCasts_S128_S1x128 := by
    show StableHlo.after hostOps0 (W0 m ρ c) (Proc.devRef .tc main_v0) = _
    after_results; rfl
  rw [e]; exact shapeCast_a_1a_apply _ _ 0 q

/-- AFTER THE FIRST KERNEL the message buffer holds every node's message. -/
theorem nodeMsg_at2 (c : Dev nD) :
    W2 m ρ c (Proc.devRef .tc main_v1)
      = linSig (m ((c : Thread nD τ).loc main_arg0)) (m ((c : Thread nD τ).loc main_arg4)) (m ((c : Thread nD τ).loc main_arg5)) := by
  refine (W2_arr m ρ c 3).trans ?_
  rw [NodeMsgArray.array_eq (V1 m ρ) c (m ((c : Thread nD τ).loc main_arg5)) (bias1_row m ρ c), x0_at1, w_at1]

/-! ## Up to the second kernel -/

set_option hygiene false in
/-- An argument the first kernel does not stage and the first two stretches do not write is as launched when the
    second stretch starts. -/
local macro "arg_at2" : tactic => `(tactic|
  (refine (W2_of_ne m ρ c _ (by decide)).trans ?_
   show W1 m ρ c _ = W0 m ρ c _; stretch_keeps))

theorem incN_at2 (c : Dev nD) : W2 m ρ c (Proc.devRef .tc main_arg2) = m ((c : Thread nD τ).loc main_arg2) := by arg_at2
theorem incE_at2 (c : Dev nD) : W2 m ρ c (Proc.devRef .tc main_arg3) = m ((c : Thread nD τ).loc main_arg3) := by arg_at2
theorem x1_at2 (c : Dev nD) : W2 m ρ c (Proc.devRef .tc main_arg1) = m ((c : Thread nD τ).loc main_arg1) := by arg_at2
theorem w2_at2 (c : Dev nD) : W2 m ρ c (Proc.devRef .tc main_arg6) = m ((c : Thread nD τ).loc main_arg6) := by arg_at2
theorem b2_at2 (c : Dev nD) : W2 m ρ c (Proc.devRef .tc main_arg7) = m ((c : Thread nD τ).loc main_arg7) := by arg_at2
theorem g1_at2 (c : Dev nD) : W2 m ρ c (Proc.devRef .tc main_arg12) = m ((c : Thread nD τ).loc main_arg12) := by arg_at2
theorem be1_at2 (c : Dev nD) : W2 m ρ c (Proc.devRef .tc main_arg13) = m ((c : Thread nD τ).loc main_arg13) := by arg_at2
theorem mu1_at2 (c : Dev nD) : W2 m ρ c (Proc.devRef .tc main_arg14) = m ((c : Thread nD τ).loc main_arg14) := by arg_at2
theorem var1_at2 (c : Dev nD) : W2 m ρ c (Proc.devRef .tc main_arg15) = m ((c : Thread nD τ).loc main_arg15) := by arg_at2

theorem x1_at3 (c : Dev nD) : V3 m ρ c main_arg1 = m ((c : Thread nD τ).loc main_arg1) := by
  refine Eq.trans ?_ (x1_at2 m ρ c)
  show W3 m ρ c (Proc.devRef .tc main_arg1) = W2 m ρ c (Proc.devRef .tc main_arg1); stretch_keeps

/-- The hyperedges' received sums when the second kernel starts. -/
theorem edgeSums_at3 (c : Dev nD) :
    V3 m ρ c main_v11 = edgeSums (W2 m ρ c (Proc.devRef .tc main_v1)) (m ((c : Thread nD τ).loc main_arg2)) (m ((c : Thread nD τ).loc main_arg3)) := by
  rw [← incN_at2 m ρ c, ← incE_at2 m ρ c]
  show StableHlo.after hostOps1 (W2 m ρ c) (Proc.devRef .tc main_v11) = _
  after_results; rfl

/-- The upper half of the 256-row weight matrix, read at `(k, q)`. -/
theorem upper_at3 (c : Dev nD) (k q : Fin 128) :
    V3 m ρ c main_v12 (ix2 k q) = m ((c : Thread nD τ).loc main_arg6) (ix2 (⟨k.val, by omega⟩ : Fin 256) q) := by
  have e : V3 m ρ c main_v12 = extractStridedSlice S128x128 ![0, 0] (W2 m ρ c (Proc.devRef .tc main_arg6)) Facts₀.slices_S256x128_S128x128_0_0 := by
    show StableHlo.after hostOps1 (W2 m ρ c) (Proc.devRef .tc main_v12) = _
    after_results
  rw [e, w2_at2]
  exact slice2_axis0_apply 0 _ _ k q _ (by show k.val = 0 + k.val; omega)

/-- The lower half of the 256-row weight matrix, read at `(k, q)`. -/
theorem lower_at3 (c : Dev nD) (k q : Fin 128) :
    V3 m ρ c main_v13 (ix2 k q) = m ((c : Thread nD τ).loc main_arg6) (ix2 (⟨128 + k.val, by omega⟩ : Fin 256) q) := by
  have e : V3 m ρ c main_v13 = extractStridedSlice S128x128 ![128, 0] (W2 m ρ c (Proc.devRef .tc main_arg6)) Facts₀.slices_S256x128_S128x128_128_0 := by
    show StableHlo.after hostOps1 (W2 m ρ c) (Proc.devRef .tc main_v13) = _
    after_results
  rw [e, w2_at2]
  exact slice2_axis0_apply 128 _ _ k q _ rfl

set_option hygiene false in
/-- A vector laid out as a row by the second stretch, read at column `q`. -/
local macro "row_at3" r:ident a:ident h:ident : tactic => `(tactic|
  (have e : V3 m ρ c $r = shapeCast S1x128 (W2 m ρ c (Proc.devRef .tc $a)) Facts₀.shapeCasts_S128_S1x128 := by
     show StableHlo.after hostOps1 (W2 m ρ c) (Proc.devRef .tc $r) = _
     after_results; rfl
   rw [e, $h:ident]; exact shapeCast_a_1a_apply _ _ 0 q))

theorem b2_row (c : Dev nD) (q : Fin 128) : V3 m ρ c main_v14 (ix2 (0 : Fin 1) q) = m ((c : Thread nD τ).loc main_arg7) (ix1 q) := by
  row_at3 main_v14 main_arg7 b2_at2
theorem g1_row (c : Dev nD) (q : Fin 128) : V3 m ρ c main_v15 (ix2 (0 : Fin 1) q) = m ((c : Thread nD τ).loc main_arg12) (ix1 q) := by
  row_at3 main_v15 main_arg12 g1_at2
theorem be1_row (c : Dev nD) (q : Fin 128) : V3 m ρ c main_v16 (ix2 (0 : Fin 1) q) = m ((c : Thread nD τ).loc main_arg13) (ix1 q) := by
  row_at3 main_v16 main_arg13 be1_at2
theorem mu1_row (c : Dev nD) (q : Fin 128) : V3 m ρ c main_v17 (ix2 (0 : Fin 1) q) = m ((c : Thread nD τ).loc main_arg14) (ix1 q) := by
  row_at3 main_v17 main_arg14 mu1_at2
theorem var1_row (c : Dev nD) (q : Fin 128) : V3 m ρ c main_v18 (ix2 (0 : Fin 1) q) = m ((c : Thread nD τ).loc main_arg15) (ix1 q) := by
  row_at3 main_v18 main_arg15 var1_at2

/-- AFTER THE SECOND KERNEL the message buffer holds every hyperedge's message … -/
theorem edgeMsg_at4 (c : Dev nD) :
    W4 m ρ c (Proc.devRef .tc main_v19_0)
      = linSig2 (m ((c : Thread nD τ).loc main_arg1)) (V3 m ρ c main_v11) (m ((c : Thread nD τ).loc main_arg6)) (m ((c : Thread nD τ).loc main_arg7)) := by
  refine (W4_arr m ρ c 9).trans ?_
  rw [EdgeArrays.msg_array (V3 m ρ) c (m ((c : Thread nD τ).loc main_arg6)) (m ((c : Thread nD τ).loc main_arg7))
    (upper_at3 m ρ c) (lower_at3 m ρ c) (b2_row m ρ c), x1_at3]

/-- … and the update buffer every hyperedge's updated features. -/
theorem edgeUpd_at4 (c : Dev nD) :
    W4 m ρ c (Proc.devRef .tc main_v19_1)
      = bnSig (m ((c : Thread nD τ).loc main_arg1)) (m ((c : Thread nD τ).loc main_arg12)) (m ((c : Thread nD τ).loc main_arg13))
          (m ((c : Thread nD τ).loc main_arg14)) (m ((c : Thread nD τ).loc main_arg15)) (V3 m ρ c main_v11) := by
  refine (W4_arr m ρ c 10).trans ?_
  rw [EdgeArrays.upd_array (V3 m ρ) c _ _ _ _ (g1_row m ρ c) (be1_row m ρ c) (mu1_row m ρ c) (var1_row m ρ c), x1_at3]

/-! ## Up to the third kernel -/

set_option hygiene false in
/-- An argument neither of the first two kernels stages and no stretch writes is as launched when the third stretch
    starts. -/
local macro "arg_at4" : tactic => `(tactic|
  (refine (W4_of_ne m ρ c _ (by decide)).trans ?_
   refine Eq.trans (b := W2 m ρ c _) (by show W3 m ρ c _ = W2 m ρ c _; stretch_keeps) ?_
   refine (W2_of_ne m ρ c _ (by decide)).trans ?_
   show W1 m ρ c _ = W0 m ρ c _; stretch_keeps))

theorem incN_at4 (c : Dev nD) : W4 m ρ c (Proc.devRef .tc main_arg2) = m ((c : Thread nD τ).loc main_arg2) := by arg_at4
theorem incE_at4 (c : Dev nD) : W4 m ρ c (Proc.devRef .tc main_arg3) = m ((c : Thread nD τ).loc main_arg3) := by arg_at4
theorem g0_at4 (c : Dev nD) : W4 m ρ c (Proc.devRef .tc main_arg8) = m ((c : Thread nD τ).loc main_arg8) := by arg_at4
theorem be0_at4 (c : Dev nD) : W4 m ρ c (Proc.devRef .tc main_arg9) = m ((c : Thread nD τ).loc main_arg9) := by arg_at4
theorem mu0_at4 (c : Dev nD) : W4 m ρ c (Proc.devRef .tc main_arg10) = m ((c : Thread nD τ).loc main_arg10) := by arg_at4
theorem var0_at4 (c : Dev nD) : W4 m ρ c (Proc.devRef .tc main_arg11) = m ((c : Thread nD τ).loc main_arg11) := by arg_at4

/-- The node features, which the first kernel stages as an input, are as launched when the third kernel starts. -/
theorem x0_at5 (c : Dev nD) : V5 m ρ c main_arg0 = m ((c : Thread nD τ).loc main_arg0) := by
  refine Eq.trans (b := W4 m ρ c (Proc.devRef .tc main_arg0)) (by show W5 m ρ c _ = W4 m ρ c _; stretch_keeps) ?_
  refine (W4_of_ne m ρ c _ (by decide)).trans ?_
  refine Eq.trans (b := W2 m ρ c (Proc.devRef .tc main_arg0)) (by show W3 m ρ c _ = W2 m ρ c _; stretch_keeps) ?_
  refine ((W2_arr m ρ c 0).trans (((dat0 (V1 m ρ) c).arrAt_in 0 rfl _).trans (A_eq0 (V1 m ρ) c 0))).trans ?_
  exact x0_at1 m ρ c

/-- The nodes' received sums when the third kernel starts. -/
theorem nodeSums_at5 (c : Dev nD) :
    V5 m ρ c main_v29 = nodeSums (W4 m ρ c (Proc.devRef .tc main_v19_0)) (m ((c : Thread nD τ).loc main_arg3)) (m ((c : Thread nD τ).loc main_arg2)) := by
  rw [← incN_at4 m ρ c, ← incE_at4 m ρ c]
  show StableHlo.after hostOps2 (W4 m ρ c) (Proc.devRef .tc main_v29) = _
  after_results; rfl

set_option hygiene false in
/-- A vector laid out as a row by the third stretch, read at column `q`. -/
local macro "row_at5" r:ident a:ident h:ident : tactic => `(tactic|
  (have e : V5 m ρ c $r = shapeCast S1x128 (W4 m ρ c (Proc.devRef .tc $a)) Facts₀.shapeCasts_S128_S1x128 := by
     show StableHlo.after hostOps2 (W4 m ρ c) (Proc.devRef .tc $r) = _
     after_results; rfl
   rw [e, $h:ident]; exact shapeCast_a_1a_apply _ _ 0 q))

theorem g0_row (c : Dev nD) (q : Fin 128) : V5 m ρ c main_v30 (ix2 (0 : Fin 1) q) = m ((c : Thread nD τ).loc main_arg8) (ix1 q) := by
  row_at5 main_v30 main_arg8 g0_at4
theorem be0_row (c : Dev nD) (q : Fin 128) : V5 m ρ c main_v31 (ix2 (0 : Fin 1) q) = m ((c : Thread nD τ).loc main_arg9) (ix1 q) := by
  row_at5 main_v31 main_arg9 be0_at4
theorem mu0_row (c : Dev nD) (q : Fin 128) : V5 m ρ c main_v32 (ix2 (0 : Fin 1) q) = m ((c : Thread nD τ).loc main_arg10) (ix1 q) := by
  row_at5 main_v32 main_arg10 mu0_at4
theorem var0_row (c : Dev nD) (q : Fin 128) : V5 m ρ c main_v33 (ix2 (0 : Fin 1) q) = m ((c : Thread nD τ).loc main_arg11) (ix1 q) := by
  row_at5 main_v33 main_arg11 var0_at4

/-! ## The last boundary: the two results -/

/-- THE FIRST RESULT: every node's updated features. -/
theorem nodeUpd_at6 (c : Dev nD) :
    W6 m ρ c (Proc.devRef .tc main_v34)
      = bnSig (m ((c : Thread nD τ).loc main_arg0)) (m ((c : Thread nD τ).loc main_arg8)) (m ((c : Thread nD τ).loc main_arg9))
          (m ((c : Thread nD τ).loc main_arg10)) (m ((c : Thread nD τ).loc main_arg11)) (V5 m ρ c main_v29) := by
  refine (W6_arr m ρ c 6).trans ?_
  rw [NodeUpdArray.array_eq (V5 m ρ) c _ _ _ _ (g0_row m ρ c) (be0_row m ρ c) (mu0_row m ρ c) (var0_row m ρ c), x0_at5]

/-- THE SECOND RESULT is what the second kernel left: neither the third stretch nor the third kernel writes it. -/
theorem edgeUpd_at6 (c : Dev nD) :
    W6 m ρ c (Proc.devRef .tc main_v19_1) = W4 m ρ c (Proc.devRef .tc main_v19_1) := by
  refine (W6_of_ne m ρ c _ (by decide)).trans ?_
  show W5 m ρ c _ = W4 m ρ c _; stretch_keeps

end Cert.KernelIdeal.Walk

end
-- ==== Proof.Layer.lean ====
/-
  The whole layer: the two results as functions of the sixteen argument arrays.

  From the node features a message per node; those messages summed over incidences into the hyperedges; from a
  hyperedge's features and what it received a message per hyperedge; those messages summed back over incidences into
  the nodes.  A node's new features are its normalised old ones plus what it received, through the logistic function;
  a hyperedge's new features are its normalised old ones plus what IT received.  Both programs are shown to end
  holding exactly these two arrays.
-/
import proofs.«111269_j15118284882724_2_alg».proof.Proof.Spec
import proofs.«111269_j15118284882724_2_alg».proof.Proof.Sums

noncomputable section

namespace Cert.HyperMsg

open Idealize.ShloMosaic Cert.KernelIdeal

/-- What every hyperedge receives: the node messages `logistic (x₀ · W + b)` summed over the incidences. -/
def edgeRecv (x0 : (⟨S100000x128, .f32⟩ : BufTy).Contents (Elt Ideal)) (incN incE : (⟨S640000, .i32⟩ : BufTy).Contents (Elt Ideal))
    (W : (⟨S128x128, .f32⟩ : BufTy).Contents (Elt Ideal)) (b : (⟨S128, .f32⟩ : BufTy).Contents (Elt Ideal)) :
    (⟨S20000x128, .f32⟩ : BufTy).Contents (Elt Ideal) :=
  edgeSums (linSig x0 W b) incN incE

/-- The first result: every node's updated features. -/
def nodeOut (x0 : (⟨S100000x128, .f32⟩ : BufTy).Contents (Elt Ideal)) (x1 : (⟨S20000x128, .f32⟩ : BufTy).Contents (Elt Ideal))
    (incN incE : (⟨S640000, .i32⟩ : BufTy).Contents (Elt Ideal))
    (W : (⟨S128x128, .f32⟩ : BufTy).Contents (Elt Ideal)) (b : (⟨S128, .f32⟩ : BufTy).Contents (Elt Ideal))
    (W2 : (⟨S256x128, .f32⟩ : BufTy).Contents (Elt Ideal)) (b2 g0 be0 mu0 var0 : (⟨S128, .f32⟩ : BufTy).Contents (Elt Ideal)) :
    (⟨S100000x128, .f32⟩ : BufTy).Contents (Elt Ideal) :=
  bnSig x0 g0 be0 mu0 var0 (nodeSums (linSig2 x1 (edgeRecv x0 incN incE W b) W2 b2) incE incN)

/-- The second result: every hyperedge's updated features. -/
def edgeOut (x0 : (⟨S100000x128, .f32⟩ : BufTy).Contents (Elt Ideal)) (x1 : (⟨S20000x128, .f32⟩ : BufTy).Contents (Elt Ideal))
    (incN incE : (⟨S640000, .i32⟩ : BufTy).Contents (Elt Ideal))
    (W : (⟨S128x128, .f32⟩ : BufTy).Contents (Elt Ideal)) (b g1 be1 mu1 var1 : (⟨S128, .f32⟩ : BufTy).Contents (Elt Ideal)) :
    (⟨S20000x128, .f32⟩ : BufTy).Contents (Elt Ideal) :=
  bnSig x1 g1 be1 mu1 var1 (edgeRecv x0 incN incE W b)

end Cert.HyperMsg

end
-- ==== Proof.KernelValue.lean ====
/-
  What the three-kernel program ends holding.

  Reading the walk through its boundaries from the end: the first result is the third kernel's array, the node
  update over the sums the nodes received; those sums are over the second kernel's message array, which is over the
  sums the hyperedges received, which are over the first kernel's array.  Substituting each boundary's fact into
  the next gives the first result as the layer's node output of the sixteen arguments, and likewise the second
  result as its hyperedge output.  The run of the whole program ends with every unscoped buffer at the last
  boundary's contents, so the two result buffers hold those two arrays and the arguments are as launched.
-/
import proofs.«111269_j15118284882724_2_alg».proof.Proof.Walk
import proofs.«111269_j15118284882724_2_alg».proof.Proof.Layer

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Walk Cert.HyperMsg

variable (m : (ℓ : Loc nD τ sig) → Buf (Elt Ideal) ℓ) (ρ : Dev nD → PrngReg)

/-- The first result buffer at the last boundary is the layer's node output of the arguments. -/
theorem nodeOut_at6 (c : Dev nD) :
    W6 m ρ c (Proc.devRef .tc main_v34)
      = nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [nodeUpd_at6, nodeSums_at5, edgeMsg_at4, edgeSums_at3, nodeMsg_at2]
  rfl

/-- The second result buffer at the last boundary is the layer's hyperedge output of the arguments. -/
theorem edgeOut_at6 (c : Dev nD) :
    W6 m ρ c (Proc.devRef .tc main_v19_1)
      = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) := by
  rw [edgeUpd_at6, edgeUpd_at4, edgeSums_at3, nodeMsg_at2]
  rfl

/-- THE RUN: every weakly fair execution terminates without a fault, the two result buffers end at the layer's two
    outputs of the arguments, and the arguments end as launched. -/
theorem run : θ_run defs (onTc (τ := τ) (main (F := Ideal))) ⟨m, fun _ => 0, ρ⟩ (fun r => ∀ c : Dev nD,
      r.2.mem ((c.tc : Thread nD τ).loc main_v34)
        = nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v19_1)
        = edgeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v34 (by decide))).trans (nodeOut_at6 m ρ c),
     (h c _ (mem_uc main_v19_1 (by decide))).trans (edgeOut_at6 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c)⟩)
    (Cert.KernelIdeal.EndState.run_ends m ρ)

end Cert.KernelIdeal.KernelValue

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.LibLogistic.lean ====
/-
  The logistic function written out as a quotient, on the extended reals.

  Array programs often spell the logistic function as `1 / (1 + exp (−y))`, a negation, an exponential, a sum and a
  quotient, with each `1` given as the binary32 word `0x3F800000`.  On the extended reals that expression IS the
  logistic function at every argument, the two infinities included (`−∞ ↦ 0`, `+∞ ↦ 1`): the word denotes the number
  one, and the quotient, the sum and the exponential are the exact ones.  No finiteness is asked of `y`.
-/
import Idealize.ShloMosaic.PureOps.Ideal

noncomputable section

namespace Cert.LibLogistic

open Idealize.ShloMosaic

/-- The binary32 word of `1.0` denotes the extended real `1`. -/
theorem one_word : Ideal.ofBits .f32 0x3F800000#32 = 1 := by
  simp [Ideal.ofBits, Ideal.ieee, -EReal.coe_mul]; norm_num

/-- `1 / (1 + exp (−y))` with both `1`s given by their binary32 word is the logistic function of `y`, for every
    extended real `y`. -/
theorem logistic_spelt (y : EReal) :
    Ideal.div (Ideal.ofBits .f32 0x3F800000#32) (Ideal.ofBits .f32 0x3F800000#32 + Ideal.exp (-y)) = Ideal.logistic y := by
  rw [one_word]; rfl

end Cert.LibLogistic

end
-- ==== Proof.RefValue.lean ====
/-
  The reference program, stage by stage, is the same layer of message passing.

  The reference forms a node's message as a quotient: one over one plus the exponential of the negated affine
  map, which is the logistic function.  It sums the messages over incidences into the hyperedges with the same array
  operations as the other program.  It forms a hyperedge's message from ONE 256-wide row — the hyperedge's own 128
  features followed by the 128 sums it received — against the whole 256-row weight matrix; cutting the sum over
  256 columns into its first and its last 128 terms, the first half meets the features and the upper rows of the
  weights, the second half the received sums and the lower rows.  It sums those messages back into the nodes, again
  with the same array operations, and updates nodes and hyperedges by the normalise–scale–shift–add–logistic map,
  each one-row table being a vector spread along the rows.
-/
import proofs.«111269_j15118284882724_2_alg».proof.Proof.Gen.ReferenceIdeal.Read
import proofs.«111269_j15118284882724_2_alg».proof.Proof.Spec
import proofs.«111269_j15118284882724_2_alg».proof.Proof.Sums
import proofs.«111269_j15118284882724_2_alg».proof.Proof.LibConcat2
import proofs.«111269_j15118284882724_2_alg».proof.Proof.LibLogistic

set_option maxRecDepth 16384

noncomputable section

open scoped BigOperators

namespace Cert.ReferenceIdeal.RefValue

open Idealize.ShloMosaic Idealize.ShloMosaic.ValueIdx Cert.ReferenceIdeal Cert.ReferenceIdeal.Read Cert.HyperMsg Cert.LibLogistic

/-! ## A node's message -/

theorem nodeMsg_ref (x0 : (⟨S100000x128, .f32⟩ : BufTy).Contents (Elt Ideal)) (x4 : (⟨S128x128, .f32⟩ : BufTy).Contents (Elt Ideal)) (x5 : (⟨S128, .f32⟩ : BufTy).Contents (Elt Ideal)) :
    val_main_v9 (F := Ideal) x0 x4 x5 = linSig x0 x4 x5 := by
  funext i
  obtain ⟨p, q, rfl⟩ : ∃ (p : Fin 100000) (q : Fin 128), i = ix2 p q := ⟨i 0, i 1, eq_ix2 i⟩
  have el : ∀ k : Fin 128, lidx_main_v0 (ix2 p q) k = ix2 p k := fun k => funext fun a => Fin.ext (by
    match a with | ⟨0, _⟩ => rfl | ⟨1, _⟩ => rfl)
  have er : ∀ k : Fin 128, ridx_main_v0 (ix2 p q) k = ix2 k q := fun k => funext fun a => Fin.ext (by
    match a with | ⟨0, _⟩ => rfl | ⟨1, _⟩ => rfl)
  have eb : idx_main_v1 (idx_main_v2 (ix2 p q)) = ix1 q := funext fun a => Fin.ext (by match a with | ⟨0, _⟩ => rfl)
  simp only [val_main_v9_apply, val_main_v8_apply, val_main_cst_0_apply, val_main_v7_apply, val_main_v6_apply,
    val_main_cst_apply, val_main_v5_apply, val_main_v4_apply, val_main_v3_apply, val_main_v0_apply, val_main_v2_apply,
    val_main_v1_apply, linSig_ix2, el, er, eb]
  exact logistic_spelt _

/-! ## The hyperedges' received sums: the same array operations -/

theorem edgeSums_ref (x0 : (⟨S100000x128, .f32⟩ : BufTy).Contents (Elt Ideal)) (x2 x3 : (⟨S640000, .i32⟩ : BufTy).Contents (Elt Ideal)) (x4 : (⟨S128x128, .f32⟩ : BufTy).Contents (Elt Ideal)) (x5 : (⟨S128, .f32⟩ : BufTy).Contents (Elt Ideal)) :
    val_main_v19 (F := Ideal) x0 x2 x3 x4 x5 = edgeSums (val_main_v9 (F := Ideal) x0 x4 x5) x2 x3 := rfl

/-! ## A hyperedge's message -/

/-- The 256-wide row at a column below 128 is the hyperedge's own feature. -/
theorem wide_left (x : (⟨S20000x128, .f32⟩ : BufTy).Contents (Elt Ideal)) (a : (⟨S20000x128, .f32⟩ : BufTy).Contents (Elt Ideal)) (p : Fin 20000) (k : Fin 128) :
    concatenate S20000x256 1 [⟨S20000x128, x⟩, ⟨S20000x128, a⟩] Facts₀.concatenates_S20000x128_S20000x128_S20000x256_d1
        (ix2 p (⟨k.val, by omega⟩ : Fin 256)) = x (ix2 p k) :=
  Cert.LibConcat2.last2_left (m := 256) x a _ p ⟨k.val, by omega⟩ k.isLt

/-- The 256-wide row at column `128 + k` is the sum the hyperedge received at column `k`. -/
theorem wide_right (x : (⟨S20000x128, .f32⟩ : BufTy).Contents (Elt Ideal)) (a : (⟨S20000x128, .f32⟩ : BufTy).Contents (Elt Ideal)) (p : Fin 20000) (k : Fin 128) :
    concatenate S20000x256 1 [⟨S20000x128, x⟩, ⟨S20000x128, a⟩] Facts₀.concatenates_S20000x128_S20000x128_S20000x256_d1
        (ix2 p (⟨128 + k.val, by omega⟩ : Fin 256)) = a (ix2 p k) :=
  (Cert.LibConcat2.last2_right (m := 256) x a _ p ⟨128 + k.val, by omega⟩ (Nat.le_add_right _ _) (by show 128 + k.val - 128 < 128; omega)).trans
    (congrArg a (congrArg (ix2 p) (Fin.ext (by show 128 + k.val - 128 = k.val; omega))))

theorem edgeMsg_ref (x0 : (⟨S100000x128, .f32⟩ : BufTy).Contents (Elt Ideal)) (x1 : (⟨S20000x128, .f32⟩ : BufTy).Contents (Elt Ideal)) (x2 x3 : (⟨S640000, .i32⟩ : BufTy).Contents (Elt Ideal))
    (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) :
    val_main_v30 (F := Ideal) x0 x1 x2 x3 x4 x5 x6 x7 = linSig2 x1 (val_main_v19 (F := Ideal) x0 x2 x3 x4 x5) x6 x7 := by
  funext i
  obtain ⟨p, q, rfl⟩ : ∃ (p : Fin 20000) (q : Fin 128), i = ix2 p q := ⟨i 0, i 1, eq_ix2 i⟩
  have el : ∀ k : Fin 256, lidx_main_v21 (ix2 p q) k = ix2 p k := fun k => funext fun a => Fin.ext (by
    match a with | ⟨0, _⟩ => rfl | ⟨1, _⟩ => rfl)
  have er : ∀ k : Fin 256, ridx_main_v21 (ix2 p q) k = ix2 k q := fun k => funext fun a => Fin.ext (by
    match a with | ⟨0, _⟩ => rfl | ⟨1, _⟩ => rfl)
  have eb : idx_main_v22 (idx_main_v23 (ix2 p q)) = ix1 q := funext fun a => Fin.ext (by match a with | ⟨0, _⟩ => rfl)
  have hsum : (∑ k : Fin 256, val_main_v20 (F := Ideal) x0 x1 x2 x3 x4 x5 (ix2 p k) * x6 (ix2 k q))
      = (∑ k : Fin 128, x1 (ix2 p k) * x6 (ix2 (⟨k.val, by omega⟩ : Fin 256) q))
        + ∑ k : Fin 128, val_main_v19 (F := Ideal) x0 x2 x3 x4 x5 (ix2 p k) * x6 (ix2 (⟨128 + k.val, by omega⟩ : Fin 256) q) := by
    rw [sum_256_split]
    refine congrArg₂ (· + ·) (Finset.sum_congr rfl fun k _ => congrArg₂ (· * ·) ?_ rfl) (Finset.sum_congr rfl fun k _ => congrArg₂ (· * ·) ?_ rfl)
    · exact wide_left x1 _ p k
    · exact wide_right x1 _ p k
  simp only [val_main_v30_apply, val_main_v29_apply, val_main_cst_4_apply, val_main_v28_apply, val_main_v27_apply,
    val_main_cst_3_apply, val_main_v26_apply, val_main_v25_apply, val_main_v24_apply, val_main_v21_apply, val_main_v23_apply,
    val_main_v22_apply, linSig2_ix2, el, er, eb]
  rw [hsum]
  exact logistic_spelt _

/-! ## The nodes' received sums: the same array operations -/

theorem nodeSums_ref (x0 : (⟨S100000x128, .f32⟩ : BufTy).Contents (Elt Ideal)) (x1 : (⟨S20000x128, .f32⟩ : BufTy).Contents (Elt Ideal)) (x2 x3 : (⟨S640000, .i32⟩ : BufTy).Contents (Elt Ideal))
    (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) :
    val_main_v40 (F := Ideal) x0 x1 x2 x3 x4 x5 x6 x7 = nodeSums (val_main_v30 (F := Ideal) x0 x1 x2 x3 x4 x5 x6 x7) x3 x2 := rfl

/-! ## The two updates -/

theorem nodeUpd_ref (x0 : (⟨S100000x128, .f32⟩ : BufTy).Contents (Elt Ideal)) (x1 : (⟨S20000x128, .f32⟩ : BufTy).Contents (Elt Ideal)) (x2 x3 : (⟨S640000, .i32⟩ : BufTy).Contents (Elt Ideal))
    (x4 : (⟨S128x128, .f32⟩ : BufTy).Contents (Elt Ideal)) (x5 : (⟨S128, .f32⟩ : BufTy).Contents (Elt Ideal)) (x6 : (⟨S256x128, .f32⟩ : BufTy).Contents (Elt Ideal)) (x7 x8 x9 x10 x11 : (⟨S128, .f32⟩ : BufTy).Contents (Elt Ideal)) :
    val_main_v62 (F := Ideal) x0 x1 x2 x3 x4 x5 x6 x7 x8 x9 x10 x11
      = bnSig x0 x8 x9 x10 x11 (val_main_v40 (F := Ideal) x0 x1 x2 x3 x4 x5 x6 x7) := by
  funext i
  obtain ⟨p, q, rfl⟩ : ∃ (p : Fin 100000) (q : Fin 128), i = ix2 p q := ⟨i 0, i 1, eq_ix2 i⟩
  have e1 : idx_main_v41 (idx_main_v42 (ix2 p q)) = ix1 q := funext fun a => Fin.ext (by match a with | ⟨0, _⟩ => rfl)
  have e2 : idx_main_v47 (idx_main_v48 (ix2 p q)) = ix1 q := funext fun a => Fin.ext (by match a with | ⟨0, _⟩ => rfl)
  have e3 : idx_main_v50 (idx_main_v51 (ix2 p q)) = ix1 q := funext fun a => Fin.ext (by match a with | ⟨0, _⟩ => rfl)
  have e4 : idx_main_v53 (idx_main_v54 (ix2 p q)) = ix1 q := funext fun a => Fin.ext (by match a with | ⟨0, _⟩ => rfl)
  simp only [val_main_v62_apply, val_main_v61_apply, val_main_cst_10_apply, val_main_v60_apply, val_main_v59_apply,
    val_main_cst_9_apply, val_main_v58_apply, val_main_v57_apply, val_main_v56_apply, val_main_v55_apply, val_main_v52_apply,
    val_main_v49_apply, val_main_v43_apply, val_main_v42_apply, val_main_v41_apply, val_main_v48_apply, val_main_v47_apply,
    val_main_v46_apply, val_main_v45_apply, val_main_v44_apply, val_main_cst_8_apply, val_main_v51_apply, val_main_v50_apply,
    val_main_v54_apply, val_main_v53_apply, bnSig_ix2, e1, e2, e3, e4]
  exact logistic_spelt _

theorem edgeUpd_ref (x0 : (⟨S100000x128, .f32⟩ : BufTy).Contents (Elt Ideal)) (x1 : (⟨S20000x128, .f32⟩ : BufTy).Contents (Elt Ideal)) (x2 x3 : (⟨S640000, .i32⟩ : BufTy).Contents (Elt Ideal))
    (x4 : (⟨S128x128, .f32⟩ : BufTy).Contents (Elt Ideal)) (x5 x12 x13 x14 x15 : (⟨S128, .f32⟩ : BufTy).Contents (Elt Ideal)) :
    val_main_v84 (F := Ideal) x0 x1 x2 x3 x4 x5 x12 x13 x14 x15
      = bnSig x1 x12 x13 x14 x15 (val_main_v19 (F := Ideal) x0 x2 x3 x4 x5) := by
  funext i
  obtain ⟨p, q, rfl⟩ : ∃ (p : Fin 20000) (q : Fin 128), i = ix2 p q := ⟨i 0, i 1, eq_ix2 i⟩
  have e1 : idx_main_v63 (idx_main_v64 (ix2 p q)) = ix1 q := funext fun a => Fin.ext (by match a with | ⟨0, _⟩ => rfl)
  have e2 : idx_main_v69 (idx_main_v70 (ix2 p q)) = ix1 q := funext fun a => Fin.ext (by match a with | ⟨0, _⟩ => rfl)
  have e3 : idx_main_v72 (idx_main_v73 (ix2 p q)) = ix1 q := funext fun a => Fin.ext (by match a with | ⟨0, _⟩ => rfl)
  have e4 : idx_main_v75 (idx_main_v76 (ix2 p q)) = ix1 q := funext fun a => Fin.ext (by match a with | ⟨0, _⟩ => rfl)
  simp only [val_main_v84_apply, val_main_v83_apply, val_main_cst_13_apply, val_main_v82_apply, val_main_v81_apply,
    val_main_cst_12_apply, val_main_v80_apply, val_main_v79_apply, val_main_v78_apply, val_main_v77_apply, val_main_v74_apply,
    val_main_v71_apply, val_main_v65_apply, val_main_v64_apply, val_main_v63_apply, val_main_v70_apply, val_main_v69_apply,
    val_main_v68_apply, val_main_v67_apply, val_main_v66_apply, val_main_cst_11_apply, val_main_v73_apply, val_main_v72_apply,
    val_main_v76_apply, val_main_v75_apply, bnSig_ix2, e1, e2, e3, e4]
  exact logistic_spelt _

end Cert.ReferenceIdeal.RefValue

end
-- ==== Proof.RefOut.lean ====
/-
  What the reference program computes: the same two arrays.

  Substituting each stage's fact into the next — the node update over the nodes' received sums, those over the
  hyperedges' messages, those over the hyperedges' received sums, those over the nodes' messages — the reference's
  first result is the layer's node output of its arguments and its second result the layer's hyperedge output.
-/
import proofs.«111269_j15118284882724_2_alg».proof.Proof.RefValue
import proofs.«111269_j15118284882724_2_alg».proof.Proof.Layer

noncomputable section

namespace Cert.ReferenceIdeal.RefValue

open Idealize.ShloMosaic Cert.ReferenceIdeal Cert.ReferenceIdeal.Read Cert.HyperMsg

theorem nodeOut_ref (x0 : (⟨S100000x128, .f32⟩ : BufTy).Contents (Elt Ideal)) (x1 : (⟨S20000x128, .f32⟩ : BufTy).Contents (Elt Ideal)) (x2 x3 : (⟨S640000, .i32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 x8 x9 x10 x11 : (⟨S128, .f32⟩ : BufTy).Contents (Elt Ideal)) :
    val_main_v62 (F := Ideal) x0 x1 x2 x3 x4 x5 x6 x7 x8 x9 x10 x11 = nodeOut x0 x1 x2 x3 x4 x5 x6 x7 x8 x9 x10 x11 := by
  rw [nodeUpd_ref, nodeSums_ref, edgeMsg_ref, edgeSums_ref, nodeMsg_ref]
  rfl

theorem edgeOut_ref (x0 : (⟨S100000x128, .f32⟩ : BufTy).Contents (Elt Ideal)) (x1 : (⟨S20000x128, .f32⟩ : BufTy).Contents (Elt Ideal)) (x2 x3 : (⟨S640000, .i32⟩ : BufTy).Contents (Elt Ideal)) (x4 : (⟨S128x128, .f32⟩ : BufTy).Contents (Elt Ideal)) (x5 : (⟨S128, .f32⟩ : BufTy).Contents (Elt Ideal)) (x12 x13 x14 x15 : (⟨S128, .f32⟩ : BufTy).Contents (Elt Ideal)) :
    val_main_v84 (F := Ideal) x0 x1 x2 x3 x4 x5 x12 x13 x14 x15 = edgeOut x0 x1 x2 x3 x4 x5 x12 x13 x14 x15 := by
  rw [edgeUpd_ref, edgeSums_ref, nodeMsg_ref]
  rfl

end Cert.ReferenceIdeal.RefValue

end
-- ==== Proof.lean ====
/-
  One layer of hypergraph message passing computed two ways, equal on the extended reals.

  The layer: every node sends a message, the logistic function of its 128 features against a 128 × 128 weight matrix
  plus a bias; each hyperedge adds up the messages of its incident nodes (640000 incidences, each a node word and a
  hyperedge word); every hyperedge sends a message, the logistic function of its 128 features followed by the 128
  sums it received, against a 256 × 128 weight matrix plus a bias; each node adds up the messages of its incident
  hyperedges; a node's new features are its old ones normalised with fixed statistics, scaled, shifted, plus what it
  received, through the logistic function, and a hyperedge's new features likewise with what IT received.

  One program computes the three dense maps in three row-tiled kernels and leaves the two summations over incidences
  as plain array operations between them; forming a hyperedge's message it never builds the 256-wide row but
  multiplies the features against the upper 128 rows of the weights and the received sums against the lower 128 and
  adds the two products.  The other program is the plain array program; it does build the 256-wide row, and it
  spells the logistic function as one over one plus the exponential of the negated argument.

  Two laws join them.  The logistic function IS that quotient on every extended real.  A sum of 256 terms is the
  sum of its first 128 plus the sum of its last 128: associativity and commutativity of addition only, which the
  extended reals have without exception, so no entry needs to be finite and the precondition is never opened.
  The two summations over incidences are the same array operations applied to the same index words in both
  programs, so they are carried as closed functions: equal messages in, equal sums out.  Rounding an operand to a
  shorter float format on the way into a product is the identity on the extended reals, and how the rows are tiled
  does not show in the arrays the kernels leave.

  The three frames: the two kernel programs terminate without a fault with their arguments unchanged whatever the
  input; the array program's frame is its run with the results forgotten.  The idealization rewrote no operation of
  the kernel program, so there is nothing for it to preserve.
-/
import proofs.«111269_j15118284882724_2_alg».proof.Defs
import proofs.«111269_j15118284882724_2_alg».proof.Proof.Gen.Kernel
import proofs.«111269_j15118284882724_2_alg».proof.Proof.Gen.Kernel.Skeleton
import proofs.«111269_j15118284882724_2_alg».proof.Proof.Gen.Kernel.Launch
import proofs.«111269_j15118284882724_2_alg».proof.Proof.Gen.Kernel.Points
import proofs.«111269_j15118284882724_2_alg».proof.Proof.Gen.Kernel.Frame
import proofs.«111269_j15118284882724_2_alg».proof.Proof.Gen.KernelIdeal
import proofs.«111269_j15118284882724_2_alg».proof.Proof.Gen.KernelIdeal.Skeleton
import proofs.«111269_j15118284882724_2_alg».proof.Proof.Gen.KernelIdeal.Launch
import proofs.«111269_j15118284882724_2_alg».proof.Proof.Gen.KernelIdeal.Points
import proofs.«111269_j15118284882724_2_alg».proof.Proof.Gen.KernelIdeal.Frame
import proofs.«111269_j15118284882724_2_alg».proof.Proof.Gen.ReferenceIdeal
import proofs.«111269_j15118284882724_2_alg».proof.Proof.Gen.Pre_finite_inputs
import proofs.«111269_j15118284882724_2_alg».proof.Proof.Gen.ReferenceIdeal.Run
import proofs.«111269_j15118284882724_2_alg».proof.Proof.Gen.ReferenceIdeal.Read
import proofs.«111269_j15118284882724_2_alg».proof.Proof.KernelValue
import proofs.«111269_j15118284882724_2_alg».proof.Proof.RefOut
import Idealize.ShloMosaic.Adequacy
import Idealize.ShloMosaic.Init

noncomputable section

namespace Cert.Proof

open Idealize.ShloMosaic Idealize.SL.Sem

/-- The kernel program as printed terminates without a fault and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The array program's frame is its run with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Run from memories that agree on the sixteen arguments, both programs end with the layer's node output in the
    first result and its hyperedge output in the second: the kernel program by the walk through its boundaries, the
    array program stage by stage. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun r h c => ?_) (Cert.ReferenceIdeal.Value.run (F := Ideal) m' ρ')
  obtain ⟨h62, h84, hargs⟩ := h c
  obtain ⟨a0, a1, a2, a3, a4, a5, a6, a7, a8, a9, a10, a11, a12, a13, a14, a15⟩ := hagree c
  refine ⟨?_, ?_, hargs⟩
  · rw [h62, Cert.ReferenceIdeal.Read.val_main_v62_eq, Cert.ReferenceIdeal.RefValue.nodeOut_ref,
      a0, a1, a2, a3, a4, a5, a6, a7, a8, a9, a10, a11]
  · rw [h84, Cert.ReferenceIdeal.Read.val_main_v84_eq, Cert.ReferenceIdeal.RefValue.edgeOut_ref,
      a0, a1, a2, a3, a4, a5, a12, a13, a14, a15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
